-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v161)) (v1 : (c : Dev Cert.KernelIdeal.nD) → Buf (Elt Ideal) ((c.tc : Thread Cert.KernelIdeal.nD Cert.KernelIdeal.τ).loc Cert.KernelIdeal.main_v163)) (v2 : (c : Dev Cert.KernelIdeal.nD) → Buf (Elt Ideal) ((c.tc : Thread Cert.KernelIdeal.nD Cert.KernelIdeal.τ).loc Cert.KernelIdeal.main_v299)) (v3 : (c : Dev Cert.KernelIdeal.nD) → Buf (Elt Ideal) ((c.tc : Thread Cert.KernelIdeal.nD Cert.KernelIdeal.τ).loc Cert.KernelIdeal.main_v245)) (v4 : (c : Dev Cert.KernelIdeal.nD) → Buf (Elt Ideal) ((c.tc : Thread Cert.KernelIdeal.nD Cert.KernelIdeal.τ).loc Cert.KernelIdeal.main_v353)) (v5 : (c : Dev Cert.KernelIdeal.nD) → Buf (Elt Ideal) ((c.tc : Thread Cert.KernelIdeal.nD Cert.KernelIdeal.τ).loc Cert.KernelIdeal.main_v245)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v161) = v0 c
          ∧ r.2.mem ((c.tc : Thread Cert.KernelIdeal.nD Cert.KernelIdeal.τ).loc Cert.KernelIdeal.main_v163) = v1 c
          ∧ r.2.mem ((c.tc : Thread Cert.KernelIdeal.nD Cert.KernelIdeal.τ).loc Cert.KernelIdeal.main_v299) = v2 c
          ∧ r.2.mem ((c.tc : Thread Cert.KernelIdeal.nD Cert.KernelIdeal.τ).loc Cert.KernelIdeal.main_v245) = v3 c
          ∧ r.2.mem ((c.tc : Thread Cert.KernelIdeal.nD Cert.KernelIdeal.τ).loc Cert.KernelIdeal.main_v353) = v4 c
          ∧ r.2.mem ((c.tc : Thread Cert.KernelIdeal.nD Cert.KernelIdeal.τ).loc Cert.KernelIdeal.main_v245) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v161) = v1 c
          ∧ r.2.mem ((c.tc : Thread Cert.ReferenceIdeal.nD Cert.ReferenceIdeal.τ).loc Cert.ReferenceIdeal.main_v295) = v2 c
          ∧ r.2.mem ((c.tc : Thread Cert.ReferenceIdeal.nD Cert.ReferenceIdeal.τ).loc Cert.ReferenceIdeal.main_v243) = v3 c
          ∧ r.2.mem ((c.tc : Thread Cert.ReferenceIdeal.nD Cert.ReferenceIdeal.τ).loc Cert.ReferenceIdeal.main_v347) = v4 c
          ∧ r.2.mem ((c.tc : Thread Cert.ReferenceIdeal.nD Cert.ReferenceIdeal.τ).loc Cert.ReferenceIdeal.main_v243) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S42852x128 : Shape := ⟨2, ![42852, 128]⟩
abbrev S27094x128 : Shape := ⟨2, ![27094, 128]⟩
abbrev S128x128 : Shape := ⟨2, ![128, 128]⟩
abbrev S500000 : Shape := ⟨1, ![500000]⟩
abbrev S2x600000 : Shape := ⟨2, ![2, 600000]⟩
abbrev S2x500000 : Shape := ⟨2, ![2, 500000]⟩
abbrev S_ : Shape := ⟨0, ![]⟩

class Facts : Prop where
  bcast_S_S42852x128 : S_.BroadcastsInDim S42852x128 (![] : Fin 0 → Fin S42852x128.rank)
  reducesTo_S42852x128_S_d0_1 : S42852x128.ReducesTo [0, 1] S_
  h_S_ : 0 < S_.numel
  bcast_S_S27094x128 : S_.BroadcastsInDim S27094x128 (![] : Fin 0 → Fin S27094x128.rank)
  reducesTo_S27094x128_S_d0_1 : S27094x128.ReducesTo [0, 1] S_
  bcast_S_S128x128 : S_.BroadcastsInDim S128x128 (![] : Fin 0 → Fin S128x128.rank)
  reducesTo_S128x128_S_d0_1 : S128x128.ReducesTo [0, 1] S_
  bcast_S_S500000 : S_.BroadcastsInDim S500000 (![] : Fin 0 → Fin S500000.rank)
  reducesTo_S500000_S_d0 : S500000.ReducesTo [0] S_

variable [Facts]

def fn_part2 {F : FTy → Type} [FloatOps F] (main_arg7 : FVec F S500000 .f32) (main_v33 : IVec S_ 1) : IVec S_ 1 :=
  let main_v34 : FVec F S500000 .f32 := Host.absf main_arg7
  let main_cst_12 : FVec F S_ .f32 := constant S_ .f32 0x7F800000#32
  let main_v35 : FVec F S500000 .f32 := broadcastInDim S500000 ![] bcast_S_S500000 main_cst_12
  let main_v36 : IVec S500000 1 := cmpf .olt main_v34 main_v35
  let main_c_13 : IVec S_ 1 := constantI S_ 1 1#1
  let main_v37 : IVec S_ 1 := (fun x v => Host.reduce IntOp.andi x v reducesTo_S500000_S_d0 h_S_) main_v36 main_c_13
  let main_v38 : IVec S_ 1 := andi main_v33 main_v37
  main_v38

def fn_part1 {F : FTy → Type} [FloatOps F] (main_arg4 : FVec F S128x128 .f32) (main_arg5 : FVec F S500000 .f32) (main_arg6 : FVec F S500000 .f32) (main_arg7 : FVec F S500000 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S500000 .f32 := Host.absf main_arg5
  let main_cst_8 : FVec F S_ .f32 := constant S_ .f32 0x7F800000#32
  let main_v25 : FVec F S500000 .f32 := broadcastInDim S500000 ![] bcast_S_S500000 main_cst_8
  let main_v26 : IVec S500000 1 := cmpf .olt main_v24 main_v25
  let main_c_9 : IVec S_ 1 := constantI S_ 1 1#1
  let main_v27 : IVec S_ 1 := (fun x v => Host.reduce IntOp.andi x v reducesTo_S500000_S_d0 h_S_) main_v26 main_c_9
  let main_v28 : IVec S_ 1 := andi main_v23 main_v27
  let main_v29 : FVec F S500000 .f32 := Host.absf main_arg6
  let main_cst_10 : FVec F S_ .f32 := constant S_ .f32 0x7F800000#32
  let main_v30 : FVec F S500000 .f32 := broadcastInDim S500000 ![] bcast_S_S500000 main_cst_10
  let main_v31 : IVec S500000 1 := cmpf .olt main_v29 main_v30
  let main_c_11 : IVec S_ 1 := constantI S_ 1 1#1
  let main_v32 : IVec S_ 1 := (fun x v => Host.reduce IntOp.andi x v reducesTo_S500000_S_d0 h_S_) main_v31 main_c_11
  let main_v33 : IVec S_ 1 := andi main_v28 main_v32
  fn_part2 (F := F) main_arg7 main_v33

def fn {F : FTy → Type} [FloatOps F] (main_arg0 : FVec F S42852x128 .f32) (main_arg1 : FVec F S27094x128 .f32) (main_arg2 : FVec F S128x128 .f32) (main_arg3 : FVec F S128x128 .f32) (main_arg4 : FVec F S128x128 .f32) (main_arg5 : FVec F S500000 .f32) (main_arg6 : FVec F S500000 .f32) (main_arg7 : FVec F S500000 .f32) (main_arg8 : IVec S2x600000 32) (main_arg9 : IVec S2x500000 32) (main_arg10 : IVec S2x500000 32) (main_arg11 : IVec S2x500000 32) : IVec S_ 1 :=
  let main_v0 : FVec F S42852x128 .f32 := Host.absf main_arg0
  let main_cst : FVec F S_ .f32 := constant S_ .f32 0x7F800000#32
  let main_v1 : FVec F S42852x128 .f32 := broadcastInDim S42852x128 ![] bcast_S_S42852x128 main_cst
  let main_v2 : IVec S42852x128 1 := cmpf .olt main_v0 main_v1
  let main_c : IVec S_ 1 := constantI S_ 1 1#1
  let main_v3 : IVec S_ 1 := (fun x v => Host.reduce IntOp.andi x v reducesTo_S42852x128_S_d0_1 h_S_) main_v2 main_c
  let main_v4 : FVec F S27094x128 .f32 := Host.absf main_arg1
  let main_cst_0 : FVec F S_ .f32 := constant S_ .f32 0x7F800000#32
  let main_v5 : FVec F S27094x128 .f32 := broadcastInDim S27094x128 ![] bcast_S_S27094x128 main_cst_0
  let main_v6 : IVec S27094x128 1 := cmpf .olt main_v4 main_v5
  let main_c_1 : IVec S_ 1 := constantI S_ 1 1#1
  let main_v7 : IVec S_ 1 := (fun x v => Host.reduce IntOp.andi x v reducesTo_S27094x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S42852x128 : Shape := ⟨2, ![42852, 128]⟩
abbrev S27094x128 : Shape := ⟨2, ![27094, 128]⟩
abbrev S128x128 : Shape := ⟨2, ![128, 128]⟩
abbrev S500000 : Shape := ⟨1, ![500000]⟩
abbrev S2x600000 : Shape := ⟨2, ![2, 600000]⟩
abbrev S2x500000 : Shape := ⟨2, ![2, 500000]⟩
abbrev S1x600000 : Shape := ⟨2, ![1, 600000]⟩
abbrev S600000 : Shape := ⟨1, ![600000]⟩
abbrev S_ : Shape := ⟨0, ![]⟩
abbrev S27094 : Shape := ⟨1, ![27094]⟩
abbrev S600000x1 : Shape := ⟨2, ![600000, 1]⟩
abbrev S42852 : Shape := ⟨1, ![42852]⟩
abbrev S43008x128 : Shape := ⟨2, ![43008, 128]⟩
abbrev S1024x128 : Shape := ⟨2, ![1024, 128]⟩
abbrev S1x500000 : Shape := ⟨2, ![1, 500000]⟩
abbrev S500000x1 : Shape := ⟨2, ![500000, 1]⟩
abbrev S500000x128 : Shape := ⟨2, ![500000, 128]⟩
abbrev S600000x128 : Shape := ⟨2, ![600000, 128]⟩

abbrev nBuf : Space → Nat
  | .hbm => 461
  | .vmem => 15
  | .smem => 0
  | _ => 0

abbrev hbmTy0_0 (i : Nat) : BufTy := match i % 128 with
  | 0 => ⟨S42852x128, .f32⟩
  | 1 => ⟨S27094x128, .f32⟩
  | 2 => ⟨S128x128, .f32⟩
  | 3 => ⟨S128x128, .f32⟩
  | 4 => ⟨S128x128, .f32⟩
  | 5 => ⟨S500000, .f32⟩
  | 6 => ⟨S500000, .f32⟩
  | 7 => ⟨S500000, .f32⟩
  | 8 => ⟨S2x600000, .i32⟩
  | 9 => ⟨S2x500000, .i32⟩
  | 10 => ⟨S2x500000, .i32⟩
  | 11 => ⟨S2x500000, .i32⟩
  | 12 => ⟨S1x600000, .i32⟩
  | 13 => ⟨S600000, .i32⟩
  | 14 => ⟨S1x600000, .i32⟩
  | 15 => ⟨S600000, .i32⟩
  | 16 => ⟨S_, .f32⟩
  | 17 => ⟨S600000, .f32⟩
  | 18 => ⟨S_, .f32⟩
  | 19 => ⟨S27094, .f32⟩
  | 20 => ⟨S600000x1, .i32⟩
  | 21 => ⟨S27094, .f32⟩
  | 22 => ⟨S_, .f32⟩
  | 23 => ⟨S42852, .f32⟩
  | 24 => ⟨S600000x1, .i32⟩
  | 25 => ⟨S42852, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000, .f32⟩
  | 44 => ⟨S600000, .f32⟩
  | 45 => ⟨S600000, .f32⟩
  | 46 => ⟨S_, .f32⟩
  | 47 => ⟨S600000, .f32⟩
  | 48 => ⟨S600000, .f32⟩
  | 49 => ⟨S600000x1, .f32⟩
  | 50 => ⟨S_, .i32⟩
  | 51 => ⟨S_, .f32⟩
  | 52 => ⟨S43008x128, .f32⟩
  | 53 => ⟨S43008x128, .f32⟩
  | 54 => ⟨S42852x128, .f32⟩
  | 55 => ⟨S1x500000, .i32⟩
  | 56 => ⟨S500000, .i32⟩
  | 57 => ⟨S_, .f32⟩
  | 58 => ⟨S42852, .f32⟩
  | 59 => ⟨S500000x1, .i32⟩
  | 60 => ⟨S42852, .f32⟩
  | 61 => ⟨S_, .f32⟩
  | 62 => ⟨S42852, .f32⟩
  | 63 => ⟨S42852, .i1⟩
  | 64 => ⟨S_, .f32⟩
  | 65 => ⟨S42852, .f32⟩
  | 66 => ⟨S42852, .f32⟩
  | 67 => ⟨S42852, .f32⟩
  | 68 => ⟨S_, .f32⟩
  | 69 => ⟨S_, .f32⟩
  | 70 => ⟨S42852, .f32⟩
  | 71 => ⟨S42852, .f32⟩
  | 72 => ⟨S1x500000, .i32⟩
  | 73 => ⟨S500000, .i32⟩
  | 74 => ⟨S_, .i32⟩
  | 75 => ⟨S500000, .i32⟩
  | 76 => ⟨S500000, .i1⟩
  | 77 => ⟨S_, .i32⟩
  | 78 => ⟨S500000, .i32⟩
  | 79 => ⟨S500000, .i32⟩
  | 80 => ⟨S500000, .i32⟩
  | 81 => ⟨S500000x1, .i32⟩
  | 82 => ⟨S500000, .f32⟩
  | 83 => ⟨S500000, .f32⟩
  | 84 => ⟨S1x500000, .i32⟩
  | 85 => ⟨S500000, .i32⟩
  | 86 => ⟨S_, .i32⟩
  | 87 => ⟨S500000, .i32⟩
  | 88 => ⟨S500000, .i1⟩
  | 89 => ⟨S_, .i32⟩
  | 90 => ⟨S500000, .i32⟩
  | 91 => ⟨S500000, .i32⟩
  | 92 => ⟨S500000, .i32⟩
  | 93 => ⟨S500000x1, .i32⟩
  | 94 => ⟨S500000, .f32⟩
  | 95 => ⟨S500000, .f32⟩
  | 96 => ⟨S500000x1, .f32⟩
  | 97 => ⟨S1x500000, .i32⟩
  | 98 => ⟨S500000, .i32⟩
  | 99 => ⟨S_, .i32⟩
  | 100 => ⟨S500000, .i32⟩
  | 101 => ⟨S500000, .i1⟩
  | 102 => ⟨S_, .i32⟩
  | 103 => ⟨S500000, .i32⟩
  | 104 => ⟨S500000, .i32⟩
  | 105 => ⟨S500000, .i32⟩
  | 106 => ⟨S500000x1, .i32⟩
  | 107 => ⟨S500000x128, .f32⟩
  | 108 => ⟨S500000x128, .f32⟩
  | 109 => ⟨S500000x128, .f32⟩
  | 110 => ⟨S1x500000, .i32⟩
  | 111 => ⟨S500000, .i32⟩
  | 112 => ⟨S_, .f32⟩
  | 113 => ⟨S42852x128, .f32⟩
  | 114 => ⟨S500000x1, .i32⟩
  | 115 => ⟨S42852x128, .f32⟩
  | 116 => ⟨S42852x128, .f32⟩
  | 117 => ⟨S_, .i32⟩
  | 118 => ⟨S600000, .i32⟩
  | 119 => ⟨S600000, .i1⟩
  | 120 => ⟨S_, .i32⟩
  | 121 => ⟨S600000, .i32⟩
  | 122 => ⟨S600000, .i32⟩
  | 123 => ⟨S600000, .i32⟩
  | 124 => ⟨S600000x1, .i32⟩
  | 125 => ⟨S600000x128, .f32⟩
  | 126 => ⟨S600000x128, .f32⟩
  | 127 => ⟨S600000x128, .f32⟩
  | _ => ⟨S42852x128, .f32⟩

abbrev hbmTy0_1 (i : Nat) : BufTy := match i % 128 with
  | 0 => ⟨S_, .f32⟩
  | 1 => ⟨S27094x128, .f32⟩
  | 2 => ⟨S600000x1, .i32⟩
  | 3 => ⟨S27094x128, .f32⟩
  | 4 => ⟨S_, .i32⟩
  | 5 => ⟨S600000, .i32⟩
  | 6 => ⟨S600000, .i1⟩
  | 7 => ⟨S_, .i32⟩
  | 8 => ⟨S600000, .i32⟩
  | 9 => ⟨S600000, .i32⟩
  | 10 => ⟨S600000, .i32⟩
  | 11 => ⟨S600000x1, .i32⟩
  | 12 => ⟨S600000x128, .f32⟩
  | 13 => ⟨S600000x128, .f32⟩
  | 14 => ⟨S600000x128, .f32⟩
  | 15 => ⟨S_, .f32⟩
  | 16 => ⟨S42852x128, .f32⟩
  | 17 => ⟨S600000x1, .i32⟩
  | 18 => ⟨S42852x128, .f32⟩
  | 19 => ⟨S42852x128, .f32⟩
  | 20 => ⟨S27094x128, .f32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000x128, .f32⟩
  | 30 => ⟨S600000x128, .f32⟩
  | 31 => ⟨S600000x128, .f32⟩
  | 32 => ⟨S_, .f32⟩
  | 33 => ⟨S27094x128, .f32⟩
  | 34 => ⟨S600000x1, .i32⟩
  | 35 => ⟨S27094x128, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000x128, .f32⟩
  | 45 => ⟨S600000x128, .f32⟩
  | 46 => ⟨S600000x128, .f32⟩
  | 47 => ⟨S_, .f32⟩
  | 48 => ⟨S42852x128, .f32⟩
  | 49 => ⟨S600000x1, .i32⟩
  | 50 => ⟨S42852x128, .f32⟩
  | 51 => ⟨S42852x128, .f32⟩
  | 52 => ⟨S27094x128, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x128, .f32⟩
  | 62 => ⟨S600000x128, .f32⟩
  | 63 => ⟨S600000x128, .f32⟩
  | 64 => ⟨S_, .f32⟩
  | 65 => ⟨S27094x128, .f32⟩
  | 66 => ⟨S600000x1, .i32⟩
  | 67 => ⟨S27094x128, .f32⟩
  | 68 => ⟨S_, .i32⟩
  | 69 => ⟨S600000, .i32⟩
  | 70 => ⟨S600000, .i1⟩
  | 71 => ⟨S_, .i32⟩
  | 72 => ⟨S600000, .i32⟩
  | 73 => ⟨S600000, .i32⟩
  | 74 => ⟨S600000, .i32⟩
  | 75 => ⟨S600000x1, .i32⟩
  | 76 => ⟨S600000x128, .f32⟩
  | 77 => ⟨S600000x128, .f32⟩
  | 78 => ⟨S600000x128, .f32⟩
  | 79 => ⟨S_, .f32⟩
  | 80 => ⟨S42852x128, .f32⟩
  | 81 => ⟨S600000x1, .i32⟩
  | 82 => ⟨S42852x128, .f32⟩
  | 83 => ⟨S42852x128, .f32⟩
  | 84 => ⟨S27094x128, .f32⟩
  | 85 => ⟨S_, .f32⟩
  | 86 => ⟨S42852x128, .f32⟩
  | 87 => ⟨S42852x128, .f32⟩
  | 88 => ⟨S_, .f32⟩
  | 89 => ⟨S27094x128, .f32⟩
  | 90 => ⟨S27094x128, .f32⟩
  | 91 => ⟨S_, .i32⟩
  | 92 => ⟨S600000, .i32⟩
  | 93 => ⟨S600000, .i1⟩
  | 94 => ⟨S_, .i32⟩
  | 95 => ⟨S600000, .i32⟩
  | 96 => ⟨S600000, .i32⟩
  | 97 => ⟨S600000, .i32⟩
  | 98 => ⟨S600000x1, .i32⟩
  | 99 => ⟨S600000x128, .f32⟩
  | 100 => ⟨S600000x128, .f32⟩
  | 101 => ⟨S600000x128, .f32⟩
  | 102 => ⟨S_, .f32⟩
  | 103 => ⟨S27094x128, .f32⟩
  | 104 => ⟨S600000x1, .i32⟩
  | 105 => ⟨S27094x128, .f32⟩
  | 106 => ⟨S_, .i32⟩
  | 107 => ⟨S600000, .i32⟩
  | 108 => ⟨S600000, .i1⟩
  | 109 => ⟨S_, .i32⟩
  | 110 => ⟨S600000, .i32⟩
  | 111 => ⟨S600000, .i32⟩
  | 112 => ⟨S600000, .i32⟩
  | 113 => ⟨S600000x1, .i32⟩
  | 114 => ⟨S600000x128, .f32⟩
  | 115 => ⟨S600000x128, .f32⟩
  | 116 => ⟨S600000x128, .f32⟩
  | 117 => ⟨S_, .f32⟩
  | 118 => ⟨S42852x128, .f32⟩
  | 119 => ⟨S600000x1, .i32⟩
  | 120 => ⟨S42852x128, .f32⟩
  | 121 => ⟨S42852x128, .f32⟩
  | 122 => ⟨S27094x128, .f32⟩
  | 123 => ⟨S_, .i32⟩
  | 124 => ⟨S600000, .i32⟩
  | 125 => ⟨S600000, .i1⟩
  | 126 => ⟨S_, .i32⟩
  | 127 => ⟨S600000, .i32⟩
  | _ => ⟨S42852x128, .f32⟩

abbrev hbmTy0_2 (i : Nat) : BufTy := match i % 128 with
  | 0 => ⟨S600000, .i32⟩
  | 1 => ⟨S600000, .i32⟩
  | 2 => ⟨S600000x1, .i32⟩
  | 3 => ⟨S600000x128, .f32⟩
  | 4 => ⟨S600000x128, .f32⟩
  | 5 => ⟨S600000x128, .f32⟩
  | 6 => ⟨S_, .f32⟩
  | 7 => ⟨S27094x128, .f32⟩
  | 8 => ⟨S600000x1, .i32⟩
  | 9 => ⟨S27094x128, .f32⟩
  | 10 => ⟨S_, .i32⟩
  | 11 => ⟨S600000, .i32⟩
  | 12 => ⟨S600000, .i1⟩
  | 13 => ⟨S_, .i32⟩
  | 14 => ⟨S600000, .i32⟩
  | 15 => ⟨S600000, .i32⟩
  | 16 => ⟨S600000, .i32⟩
  | 17 => ⟨S600000x1, .i32⟩
  | 18 => ⟨S600000x128, .f32⟩
  | 19 => ⟨S600000x128, .f32⟩
  | 20 => ⟨S600000x128, .f32⟩
  | 21 => ⟨S_, .f32⟩
  | 22 => ⟨S42852x128, .f32⟩
  | 23 => ⟨S600000x1, .i32⟩
  | 24 => ⟨S42852x128, .f32⟩
  | 25 => ⟨S42852x128, .f32⟩
  | 26 => ⟨S27094x128, .f32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000x128, .f32⟩
  | 36 => ⟨S600000x128, .f32⟩
  | 37 => ⟨S600000x128, .f32⟩
  | 38 => ⟨S_, .f32⟩
  | 39 => ⟨S27094x128, .f32⟩
  | 40 => ⟨S600000x1, .i32⟩
  | 41 => ⟨S27094x128, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000x128, .f32⟩
  | 51 => ⟨S600000x128, .f32⟩
  | 52 => ⟨S600000x128, .f32⟩
  | 53 => ⟨S_, .f32⟩
  | 54 => ⟨S42852x128, .f32⟩
  | 55 => ⟨S600000x1, .i32⟩
  | 56 => ⟨S42852x128, .f32⟩
  | 57 => ⟨S42852x128, .f32⟩
  | 58 => ⟨S27094x128, .f32⟩
  | 59 => ⟨S_, .f32⟩
  | 60 => ⟨S42852x128, .f32⟩
  | 61 => ⟨S42852x128, .f32⟩
  | 62 => ⟨S_, .f32⟩
  | 63 => ⟨S27094x128, .f32⟩
  | 64 => ⟨S27094x128, .f32⟩
  | 65 => ⟨S_, .i32⟩
  | 66 => ⟨S_, .f32⟩
  | 67 => ⟨S43008x128, .f32⟩
  | 68 => ⟨S43008x128, .f32⟩
  | 69 => ⟨S42852x128, .f32⟩
  | 70 => ⟨S1x500000, .i32⟩
  | 71 => ⟨S500000, .i32⟩
  | 72 => ⟨S_, .f32⟩
  | 73 => ⟨S42852, .f32⟩
  | 74 => ⟨S500000x1, .i32⟩
  | 75 => ⟨S42852, .f32⟩
  | 76 => ⟨S_, .f32⟩
  | 77 => ⟨S42852, .f32⟩
  | 78 => ⟨S42852, .i1⟩
  | 79 => ⟨S_, .f32⟩
  | 80 => ⟨S42852, .f32⟩
  | 81 => ⟨S42852, .f32⟩
  | 82 => ⟨S42852, .f32⟩
  | 83 => ⟨S_, .f32⟩
  | 84 => ⟨S_, .f32⟩
  | 85 => ⟨S42852, .f32⟩
  | 86 => ⟨S42852, .f32⟩
  | 87 => ⟨S1x500000, .i32⟩
  | 88 => ⟨S500000, .i32⟩
  | 89 => ⟨S_, .i32⟩
  | 90 => ⟨S500000, .i32⟩
  | 91 => ⟨S500000, .i1⟩
  | 92 => ⟨S_, .i32⟩
  | 93 => ⟨S500000, .i32⟩
  | 94 => ⟨S500000, .i32⟩
  | 95 => ⟨S500000, .i32⟩
  | 96 => ⟨S500000x1, .i32⟩
  | 97 => ⟨S500000, .f32⟩
  | 98 => ⟨S500000, .f32⟩
  | 99 => ⟨S1x500000, .i32⟩
  | 100 => ⟨S500000, .i32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000, .f32⟩
  | 110 => ⟨S500000, .f32⟩
  | 111 => ⟨S500000x1, .f32⟩
  | 112 => ⟨S1x500000, .i32⟩
  | 113 => ⟨S500000, .i32⟩
  | 114 => ⟨S_, .i32⟩
  | 115 => ⟨S500000, .i32⟩
  | 116 => ⟨S500000, .i1⟩
  | 117 => ⟨S_, .i32⟩
  | 118 => ⟨S500000, .i32⟩
  | 119 => ⟨S500000, .i32⟩
  | 120 => ⟨S500000, .i32⟩
  | 121 => ⟨S500000x1, .i32⟩
  | 122 => ⟨S500000x128, .f32⟩
  | 123 => ⟨S500000x128, .f32⟩
  | 124 => ⟨S500000x128, .f32⟩
  | 125 => ⟨S1x500000, .i32⟩
  | 126 => ⟨S500000, .i32⟩
  | 127 => ⟨S_, .f32⟩
  | _ => ⟨S42852x128, .f32⟩

abbrev hbmTy0_3 (i : Nat) : BufTy := match i % 128 with
  | 0 => ⟨S42852x128, .f32⟩
  | 1 => ⟨S500000x1, .i32⟩
  | 2 => ⟨S42852x128, .f32⟩
  | 3 => ⟨S_, .f32⟩
  | 4 => ⟨S42852x128, .f32⟩
  | 5 => ⟨S42852x128, .f32⟩
  | 6 => ⟨S42852x128, .f32⟩
  | 7 => ⟨S_, .i32⟩
  | 8 => ⟨S_, .f32⟩
  | 9 => ⟨S43008x128, .f32⟩
  | 10 => ⟨S43008x128, .f32⟩
  | 11 => ⟨S42852x128, .f32⟩
  | 12 => ⟨S1x500000, .i32⟩
  | 13 => ⟨S500000, .i32⟩
  | 14 => ⟨S_, .f32⟩
  | 15 => ⟨S42852, .f32⟩
  | 16 => ⟨S500000x1, .i32⟩
  | 17 => ⟨S42852, .f32⟩
  | 18 => ⟨S_, .f32⟩
  | 19 => ⟨S42852, .f32⟩
  | 20 => ⟨S42852, .i1⟩
  | 21 => ⟨S_, .f32⟩
  | 22 => ⟨S42852, .f32⟩
  | 23 => ⟨S42852, .f32⟩
  | 24 => ⟨S42852, .f32⟩
  | 25 => ⟨S_, .f32⟩
  | 26 => ⟨S_, .f32⟩
  | 27 => ⟨S42852, .f32⟩
  | 28 => ⟨S42852, .f32⟩
  | 29 => ⟨S1x500000, .i32⟩
  | 30 => ⟨S500000, .i32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000, .f32⟩
  | 40 => ⟨S500000, .f32⟩
  | 41 => ⟨S1x500000, .i32⟩
  | 42 => ⟨S500000, .i32⟩
  | 43 => ⟨S_, .i32⟩
  | 44 => ⟨S500000, .i32⟩
  | 45 => ⟨S500000, .i1⟩
  | 46 => ⟨S_, .i32⟩
  | 47 => ⟨S500000, .i32⟩
  | 48 => ⟨S500000, .i32⟩
  | 49 => ⟨S500000, .i32⟩
  | 50 => ⟨S500000x1, .i32⟩
  | 51 => ⟨S500000, .f32⟩
  | 52 => ⟨S500000, .f32⟩
  | 53 => ⟨S500000x1, .f32⟩
  | 54 => ⟨S1x500000, .i32⟩
  | 55 => ⟨S500000, .i32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S500000x1, .i32⟩
  | 64 => ⟨S500000x128, .f32⟩
  | 65 => ⟨S500000x128, .f32⟩
  | 66 => ⟨S500000x128, .f32⟩
  | 67 => ⟨S1x500000, .i32⟩
  | 68 => ⟨S500000, .i32⟩
  | 69 => ⟨S_, .f32⟩
  | 70 => ⟨S42852x128, .f32⟩
  | 71 => ⟨S500000x1, .i32⟩
  | 72 => ⟨S42852x128, .f32⟩
  | 73 => ⟨S_, .f32⟩
  | 74 => ⟨S42852x128, .f32⟩
  | 75 => ⟨S42852x128, .f32⟩
  | 76 => ⟨S42852x128, .f32⟩
  | _ => ⟨S42852x128, .f32⟩

abbrev hbmTy (i : Nat) : BufTy := match i / 128 with
  | 0 => hbmTy0_0 i
  | 1 => hbmTy0_1 i
  | 2 => hbmTy0_2 i
  | 3 => hbmTy0_3 i
  | _ => ⟨S42852x128, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S128x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S128x128, .f32⟩
  | .local _ .vmem, ⟨13, _⟩ => ⟨S1024x128, .f32⟩
  | .local _ .vmem, ⟨14, _⟩ => ⟨S1024x128, .f32⟩
  | _, _ => ⟨S42852x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_call0_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_call1_v0 : Ref sig .tc := ⟨.hbm, 69, rfl⟩
abbrev main_call1_v1 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_11 : Ref sig .tc := ⟨.hbm, 74, rfl⟩
abbrev main_v46 : Ref sig .tc := ⟨.hbm, 75, rfl⟩
abbrev main_v47 : Ref sig .tc := ⟨.hbm, 76, rfl⟩
abbrev main_c_12 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_13 : Ref sig .tc := ⟨.hbm, 86, rfl⟩
abbrev main_v56 : Ref sig .tc := ⟨.hbm, 87, rfl⟩
abbrev main_v57 : Ref sig .tc := ⟨.hbm, 88, rfl⟩
abbrev main_c_14 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_17 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_18 : Ref sig .tc := ⟨.hbm, 117, rfl⟩
abbrev main_v82 : Ref sig .tc := ⟨.hbm, 118, rfl⟩
abbrev main_v83 : Ref sig .tc := ⟨.hbm, 119, rfl⟩
abbrev main_c_19 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_20 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_c_21 : Ref sig .tc := ⟨.hbm, 132, rfl⟩
abbrev main_v94 : Ref sig .tc := ⟨.hbm, 133, rfl⟩
abbrev main_v95 : Ref sig .tc := ⟨.hbm, 134, rfl⟩
abbrev main_c_22 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_23 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_c_24 : Ref sig .tc := ⟨.hbm, 149, rfl⟩
abbrev main_v108 : Ref sig .tc := ⟨.hbm, 150, rfl⟩
abbrev main_v109 : Ref sig .tc := ⟨.hbm, 151, rfl⟩
abbrev main_c_25 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_26 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_c_27 : Ref sig .tc := ⟨.hbm, 164, rfl⟩
abbrev main_v120 : Ref sig .tc := ⟨.hbm, 165, rfl⟩
abbrev main_v121 : Ref sig .tc := ⟨.hbm, 166, rfl⟩
abbrev main_c_28 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_29 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_c_30 : Ref sig .tc := ⟨.hbm, 181, rfl⟩
abbrev main_v134 : Ref sig .tc := ⟨.hbm, 182, rfl⟩
abbrev main_v135 : Ref sig .tc := ⟨.hbm, 183, rfl⟩
abbrev main_c_31 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_cst_32 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_c_33 : Ref sig .tc := ⟨.hbm, 196, rfl⟩
abbrev main_v146 : Ref sig .tc := ⟨.hbm, 197, rfl⟩
abbrev main_v147 : Ref sig .tc := ⟨.hbm, 198, rfl⟩
abbrev main_c_34 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_cst_35 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_cst_36 : Ref sig .tc := ⟨.hbm, 213, rfl⟩
abbrev main_v160 : Ref sig .tc := ⟨.hbm, 214, rfl⟩
abbrev main_v161 : Ref sig .tc := ⟨.hbm, 215, rfl⟩
abbrev main_cst_37 : Ref sig .tc := ⟨.hbm, 216, rfl⟩
abbrev main_v162 : Ref sig .tc := ⟨.hbm, 217, rfl⟩
abbrev main_v163 : Ref sig .tc := ⟨.hbm, 218, rfl⟩
abbrev main_c_38 : Ref sig .tc := ⟨.hbm, 219, rfl⟩
abbrev main_v164 : Ref sig .tc := ⟨.hbm, 220, rfl⟩
abbrev main_v165 : Ref sig .tc := ⟨.hbm, 221, rfl⟩
abbrev main_c_39 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_cst_40 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_c_41 : Ref sig .tc := ⟨.hbm, 234, rfl⟩
abbrev main_v176 : Ref sig .tc := ⟨.hbm, 235, rfl⟩
abbrev main_v177 : Ref sig .tc := ⟨.hbm, 236, rfl⟩
abbrev main_c_42 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_cst_43 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_c_44 : Ref sig .tc := ⟨.hbm, 251, rfl⟩
abbrev main_v190 : Ref sig .tc := ⟨.hbm, 252, rfl⟩
abbrev main_v191 : Ref sig .tc := ⟨.hbm, 253, rfl⟩
abbrev main_c_45 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_cst_46 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_c_47 : Ref sig .tc := ⟨.hbm, 266, rfl⟩
abbrev main_v202 : Ref sig .tc := ⟨.hbm, 267, rfl⟩
abbrev main_v203 : Ref sig .tc := ⟨.hbm, 268, rfl⟩
abbrev main_c_48 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_cst_49 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_c_50 : Ref sig .tc := ⟨.hbm, 283, rfl⟩
abbrev main_v216 : Ref sig .tc := ⟨.hbm, 284, rfl⟩
abbrev main_v217 : Ref sig .tc := ⟨.hbm, 285, rfl⟩
abbrev main_c_51 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_cst_52 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_c_53 : Ref sig .tc := ⟨.hbm, 298, rfl⟩
abbrev main_v228 : Ref sig .tc := ⟨.hbm, 299, rfl⟩
abbrev main_v229 : Ref sig .tc := ⟨.hbm, 300, rfl⟩
abbrev main_c_54 : Ref sig .tc := ⟨.hbm, 301, rfl⟩
abbrev main_v230 : Ref sig .tc := ⟨.hbm, 302, rfl⟩
abbrev main_v231 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_cst_55 : Ref sig .tc := ⟨.hbm, 309, rfl⟩
abbrev main_v237 : Ref sig .tc := ⟨.hbm, 310, rfl⟩
abbrev main_v238 : Ref sig .tc := ⟨.hbm, 311, rfl⟩
abbrev main_v239 : Ref sig .tc := ⟨.hbm, 312, rfl⟩
abbrev main_v240 : Ref sig .tc := ⟨.hbm, 313, rfl⟩
abbrev main_v241 : Ref sig .tc := ⟨.hbm, 314, rfl⟩
abbrev main_cst_56 : Ref sig .tc := ⟨.hbm, 315, rfl⟩
abbrev main_v242 : Ref sig .tc := ⟨.hbm, 316, rfl⟩
abbrev main_v243 : Ref sig .tc := ⟨.hbm, 317, rfl⟩
abbrev main_cst_57 : Ref sig .tc := ⟨.hbm, 318, rfl⟩
abbrev main_v244 : Ref sig .tc := ⟨.hbm, 319, rfl⟩
abbrev main_v245 : Ref sig .tc := ⟨.hbm, 320, rfl⟩
abbrev main_c_58 : Ref sig .tc := ⟨.hbm, 321, rfl⟩
abbrev main_call2_v0 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_cst_59 : Ref sig .tc := ⟨.hbm, 328, rfl⟩
abbrev main_v251 : Ref sig .tc := ⟨.hbm, 329, rfl⟩
abbrev main_v252 : Ref sig .tc := ⟨.hbm, 330, rfl⟩
abbrev main_v253 : Ref sig .tc := ⟨.hbm, 331, rfl⟩
abbrev main_cst_60 : Ref sig .tc := ⟨.hbm, 332, rfl⟩
abbrev main_v254 : Ref sig .tc := ⟨.hbm, 333, rfl⟩
abbrev main_v255 : Ref sig .tc := ⟨.hbm, 334, rfl⟩
abbrev main_cst_61 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_cst_62 : Ref sig .tc := ⟨.hbm, 339, rfl⟩
abbrev main_call3_v0 : Ref sig .tc := ⟨.hbm, 340, rfl⟩
abbrev main_call3_v1 : Ref sig .tc := ⟨.hbm, 341, rfl⟩
abbrev main_v259 : Ref sig .tc := ⟨.hbm, 342, rfl⟩
abbrev main_v260 : Ref sig .tc := ⟨.hbm, 343, rfl⟩
abbrev main_v261 : Ref sig .tc := ⟨.hbm, 344, rfl⟩
abbrev main_c_63 : Ref sig .tc := ⟨.hbm, 345, rfl⟩
abbrev main_v262 : Ref sig .tc := ⟨.hbm, 346, rfl⟩
abbrev main_v263 : Ref sig .tc := ⟨.hbm, 347, rfl⟩
abbrev main_c_64 : Ref sig .tc := ⟨.hbm, 348, rfl⟩
abbrev main_v264 : Ref sig .tc := ⟨.hbm, 349, rfl⟩
abbrev main_v265 : Ref sig .tc := ⟨.hbm, 350, rfl⟩
abbrev main_v266 : Ref sig .tc := ⟨.hbm, 351, rfl⟩
abbrev main_v267 : Ref sig .tc := ⟨.hbm, 352, rfl⟩
abbrev main_v268 : Ref sig .tc := ⟨.hbm, 353, rfl⟩
abbrev main_v269 : Ref sig .tc := ⟨.hbm, 354, rfl⟩
abbrev main_v270 : Ref sig .tc := ⟨.hbm, 355, rfl⟩
abbrev main_v271 : Ref sig .tc := ⟨.hbm, 356, rfl⟩
abbrev main_c_65 : Ref sig .tc := ⟨.hbm, 357, rfl⟩
abbrev main_v272 : Ref sig .tc := ⟨.hbm, 358, rfl⟩
abbrev main_v273 : Ref sig .tc := ⟨.hbm, 359, rfl⟩
abbrev main_c_66 : Ref sig .tc := ⟨.hbm, 360, rfl⟩
abbrev main_v274 : Ref sig .tc := ⟨.hbm, 361, rfl⟩
abbrev main_v275 : Ref sig .tc := ⟨.hbm, 362, rfl⟩
abbrev main_v276 : Ref sig .tc := ⟨.hbm, 363, rfl⟩
abbrev main_v277 : Ref sig .tc := ⟨.hbm, 364, rfl⟩
abbrev main_v278 : Ref sig .tc := ⟨.hbm, 365, rfl⟩
abbrev main_v279 : Ref sig .tc := ⟨.hbm, 366, rfl⟩
abbrev main_v280 : Ref sig .tc := ⟨.hbm, 367, rfl⟩
abbrev main_v281 : Ref sig .tc := ⟨.hbm, 368, rfl⟩
abbrev main_v282 : Ref sig .tc := ⟨.hbm, 369, rfl⟩
abbrev main_c_67 : Ref sig .tc := ⟨.hbm, 370, rfl⟩
abbrev main_v283 : Ref sig .tc := ⟨.hbm, 371, rfl⟩
abbrev main_v284 : Ref sig .tc := ⟨.hbm, 372, rfl⟩
abbrev main_c_68 : Ref sig .tc := ⟨.hbm, 373, rfl⟩
abbrev main_v285 : Ref sig .tc := ⟨.hbm, 374, rfl⟩
abbrev main_v286 : Ref sig .tc := ⟨.hbm, 375, rfl⟩
abbrev main_v287 : Ref sig .tc := ⟨.hbm, 376, rfl⟩
abbrev main_v288 : Ref sig .tc := ⟨.hbm, 377, rfl⟩
abbrev main_v289 : Ref sig .tc := ⟨.hbm, 378, rfl⟩
abbrev main_v290 : Ref sig .tc := ⟨.hbm, 379, rfl⟩
abbrev main_v291 : Ref sig .tc := ⟨.hbm, 380, rfl⟩
abbrev main_v292 : Ref sig .tc := ⟨.hbm, 381, rfl⟩
abbrev main_v293 : Ref sig .tc := ⟨.hbm, 382, rfl⟩
abbrev main_cst_69 : Ref sig .tc := ⟨.hbm, 383, rfl⟩
abbrev main_v294 : Ref sig .tc := ⟨.hbm, 384, rfl⟩
abbrev main_v295 : Ref sig .tc := ⟨.hbm, 385, rfl⟩
abbrev main_v296 : Ref sig .tc := ⟨.hbm, 386, rfl⟩
abbrev main_cst_70 : Ref sig .tc := ⟨.hbm, 387, rfl⟩
abbrev main_v297 : Ref sig .tc := ⟨.hbm, 388, rfl⟩
abbrev main_v298 : Ref sig .tc := ⟨.hbm, 389, rfl⟩
abbrev main_v299 : Ref sig .tc := ⟨.hbm, 390, rfl⟩
abbrev main_c_71 : Ref sig .tc := ⟨.hbm, 391, rfl⟩
abbrev main_call4_v0 : Ref sig .tc := ⟨.hbm, 392, rfl⟩
abbrev main_v300 : Ref sig .tc := ⟨.hbm, 393, rfl⟩
abbrev main_v301 : Ref sig .tc := ⟨.hbm, 394, rfl⟩
abbrev main_v302 : Ref sig .tc := ⟨.hbm, 395, rfl⟩
abbrev main_v303 : Ref sig .tc := ⟨.hbm, 396, rfl⟩
abbrev main_v304 : Ref sig .tc := ⟨.hbm, 397, rfl⟩
abbrev main_cst_72 : Ref sig .tc := ⟨.hbm, 398, rfl⟩
abbrev main_v305 : Ref sig .tc := ⟨.hbm, 399, rfl⟩
abbrev main_v306 : Ref sig .tc := ⟨.hbm, 400, rfl⟩
abbrev main_v307 : Ref sig .tc := ⟨.hbm, 401, rfl⟩
abbrev main_cst_73 : Ref sig .tc := ⟨.hbm, 402, rfl⟩
abbrev main_v308 : Ref sig .tc := ⟨.hbm, 403, rfl⟩
abbrev main_v309 : Ref sig .tc := ⟨.hbm, 404, rfl⟩
abbrev main_cst_74 : Ref sig .tc := ⟨.hbm, 405, rfl⟩
abbrev main_v310 : Ref sig .tc := ⟨.hbm, 406, rfl⟩
abbrev main_v311 : Ref sig .tc := ⟨.hbm, 407, rfl⟩
abbrev main_v312 : Ref sig .tc := ⟨.hbm, 408, rfl⟩
abbrev main_cst_75 : Ref sig .tc := ⟨.hbm, 409, rfl⟩
abbrev main_call5_v0 : Ref sig .tc := ⟨.hbm, 410, rfl⟩
abbrev main_call5_v1 : Ref sig .tc := ⟨.hbm, 411, rfl⟩
abbrev main_v313 : Ref sig .tc := ⟨.hbm, 412, rfl⟩
abbrev main_v314 : Ref sig .tc := ⟨.hbm, 413, rfl⟩
abbrev main_v315 : Ref sig .tc := ⟨.hbm, 414, rfl⟩
abbrev main_c_76 : Ref sig .tc := ⟨.hbm, 415, rfl⟩
abbrev main_v316 : Ref sig .tc := ⟨.hbm, 416, rfl⟩
abbrev main_v317 : Ref sig .tc := ⟨.hbm, 417, rfl⟩
abbrev main_c_77 : Ref sig .tc := ⟨.hbm, 418, rfl⟩
abbrev main_v318 : Ref sig .tc := ⟨.hbm, 419, rfl⟩
abbrev main_v319 : Ref sig .tc := ⟨.hbm, 420, rfl⟩
abbrev main_v320 : Ref sig .tc := ⟨.hbm, 421, rfl⟩
abbrev main_v321 : Ref sig .tc := ⟨.hbm, 422, rfl⟩
abbrev main_v322 : Ref sig .tc := ⟨.hbm, 423, rfl⟩
abbrev main_v323 : Ref sig .tc := ⟨.hbm, 424, rfl⟩
abbrev main_v324 : Ref sig .tc := ⟨.hbm, 425, rfl⟩
abbrev main_v325 : Ref sig .tc := ⟨.hbm, 426, rfl⟩
abbrev main_c_78 : Ref sig .tc := ⟨.hbm, 427, rfl⟩
abbrev main_v326 : Ref sig .tc := ⟨.hbm, 428, rfl⟩
abbrev main_v327 : Ref sig .tc := ⟨.hbm, 429, rfl⟩
abbrev main_c_79 : Ref sig .tc := ⟨.hbm, 430, rfl⟩
abbrev main_v328 : Ref sig .tc := ⟨.hbm, 431, rfl⟩
abbrev main_v329 : Ref sig .tc := ⟨.hbm, 432, rfl⟩
abbrev main_v330 : Ref sig .tc := ⟨.hbm, 433, rfl⟩
abbrev main_v331 : Ref sig .tc := ⟨.hbm, 434, rfl⟩
abbrev main_v332 : Ref sig .tc := ⟨.hbm, 435, rfl⟩
abbrev main_v333 : Ref sig .tc := ⟨.hbm, 436, rfl⟩
abbrev main_v334 : Ref sig .tc := ⟨.hbm, 437, rfl⟩
abbrev main_v335 : Ref sig .tc := ⟨.hbm, 438, rfl⟩
abbrev main_v336 : Ref sig .tc := ⟨.hbm, 439, rfl⟩
abbrev main_c_80 : Ref sig .tc := ⟨.hbm, 440, rfl⟩
abbrev main_v337 : Ref sig .tc := ⟨.hbm, 441, rfl⟩
abbrev main_v338 : Ref sig .tc := ⟨.hbm, 442, rfl⟩
abbrev main_c_81 : Ref sig .tc := ⟨.hbm, 443, rfl⟩
abbrev main_v339 : Ref sig .tc := ⟨.hbm, 444, rfl⟩
abbrev main_v340 : Ref sig .tc := ⟨.hbm, 445, rfl⟩
abbrev main_v341 : Ref sig .tc := ⟨.hbm, 446, rfl⟩
abbrev main_v342 : Ref sig .tc := ⟨.hbm, 447, rfl⟩
abbrev main_v343 : Ref sig .tc := ⟨.hbm, 448, rfl⟩
abbrev main_v344 : Ref sig .tc := ⟨.hbm, 449, rfl⟩
abbrev main_v345 : Ref sig .tc := ⟨.hbm, 450, rfl⟩
abbrev main_v346 : Ref sig .tc := ⟨.hbm, 451, rfl⟩
abbrev main_v347 : Ref sig .tc := ⟨.hbm, 452, rfl⟩
abbrev main_cst_82 : Ref sig .tc := ⟨.hbm, 453, rfl⟩
abbrev main_v348 : Ref sig .tc := ⟨.hbm, 454, rfl⟩
abbrev main_v349 : Ref sig .tc := ⟨.hbm, 455, rfl⟩
abbrev main_v350 : Ref sig .tc := ⟨.hbm, 456, rfl⟩
abbrev main_cst_83 : Ref sig .tc := ⟨.hbm, 457, rfl⟩
abbrev main_v351 : Ref sig .tc := ⟨.hbm, 458, rfl⟩
abbrev main_v352 : Ref sig .tc := ⟨.hbm, 459, rfl⟩
abbrev main_v353 : Ref sig .tc := ⟨.hbm, 460, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![42], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![42], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![42], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S27094 : S_.BroadcastsInDim S27094 (![] : Fin 0 → Fin S27094.rank)
  bcast_S600000_S600000x1_0 : S600000.BroadcastsInDim S600000x1 (![0] : Fin 1 → Fin S600000x1.rank)
  bcast_S_S42852 : S_.BroadcastsInDim S42852 (![] : Fin 0 → Fin S42852.rank)
  pads_S42852x128_S43008x128_01560_000 : S42852x128.Pads (![0, 0] : Fin 2 → Nat) ![156, 0] ![0, 0] S43008x128
  h_S_ : 0 < S_.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S43008x128_S42852x128_0_0 : S43008x128.Slices ![0, 0] S42852x128
  slices_S2x500000_S1x500000_1_0 : S2x500000.Slices ![1, 0] S1x500000
  shapeCasts_S1x500000_S500000 : S1x500000.ShapeCasts S500000
  bcast_S500000_S500000x1_0 : S500000.BroadcastsInDim S500000x1 (![0] : Fin 1 → Fin S500000x1.rank)
  slices_S2x500000_S1x500000_0_0 : S2x500000.Slices ![0, 0] S1x500000
  bcast_S_S500000 : S_.BroadcastsInDim S500000 (![] : Fin 0 → Fin S500000.rank)
  bcast_S500000x1_S500000x128_0_1 : S500000x1.BroadcastsInDim S500000x128 (![0, 1] : Fin 2 → Fin S500000x128.rank)
  bcast_S_S42852x128 : S_.BroadcastsInDim S42852x128 (![] : Fin 0 → Fin S42852x128.rank)
  bcast_S600000x1_S600000x128_0_1 : S600000x1.BroadcastsInDim S600000x128 (![0, 1] : Fin 2 → Fin S600000x128.rank)
  bcast_S_S27094x128 : S_.BroadcastsInDim S27094x128 (![] : Fin 0 → Fin S27094x128.rank)
  scatter_S27094_S600000x1_S600000_n_0_0_1_wf : ScatterDims.WF S27094 S600000x1 S600000 [] [0] [0] 1
  scatter_S42852_S600000x1_S600000_n_0_0_1_wf : ScatterDims.WF S42852 S600000x1 S600000 [] [0] [0] 1
  gather_S27094_S600000x1_S600000_n_0_n_n_0_1_1_wf : GatherDims.WF S27094 S600000x1 S600000 [] [0] [] [0] [] 1 ![1]
  gather_S42852_S600000x1_S600000_n_0_n_n_0_1_1_wf : GatherDims.WF S42852 S600000x1 S600000 [] [0] [] [0] [] 1 ![1]
  dot_S1024x128_S128x128_S1024x128_1_0_0_1_n_n_wf : DotDims.WF S1024x128 S128x128 S1024x128 [1] [0] [0] [1] [] []
  scatter_S42852_S500000x1_S500000_n_0_0_1_wf : ScatterDims.WF S42852 S500000x1 S500000 [] [0] [0] 1
  gather_S42852_S500000x1_S500000_n_0_n_n_0_1_1_wf : GatherDims.WF S42852 S500000x1 S500000 [] [0] [] [0] [] 1 ![1]
  gather_S42852x128_S500000x1_S500000x128_1_0_n_n_0_1_1128_wf : GatherDims.WF S42852x128 S500000x1 S500000x128 [1] [0] [] [0] [] 1 ![1, 128]
  scatter_S42852x128_S500000x1_S500000x128_1_0_0_1_wf : ScatterDims.WF S42852x128 S500000x1 S500000x128 [1] [0] [0] 1
  gather_S42852x128_S600000x1_S600000x128_1_0_n_n_0_1_1128_wf : GatherDims.WF S42852x128 S600000x1 S600000x128 [1] [0] [] [0] [] 1 ![1, 128]
  scatter_S27094x128_S600000x1_S600000x128_1_0_0_1_wf : ScatterDims.WF S27094x128 S600000x1 S600000x128 [1] [0] [0] 1
  gather_S27094x128_S600000x1_S600000x128_1_0_n_n_0_1_1128_wf : GatherDims.WF S27094x128 S600000x1 S600000x128 [1] [0] [] [0] [] 1 ![1, 128]
  scatter_S42852x128_S600000x1_S600000x128_1_0_0_1_wf : ScatterDims.WF S42852x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S43008x128.size a
  hwx0_0 : ∀ i : grid0.Coords, EltTy.bits .f32 = 32 ∨ (Rect.block (s := S43008x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S43008x128.size a
  hwx0_2 : ∀ i : grid0.Coords, EltTy.bits .f32 = 32 ∨ (Rect.block (s := S43008x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S43008x128.size a
  hwx1_0 : ∀ i : grid1.Coords, EltTy.bits .f32 = 32 ∨ (Rect.block (s := S43008x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S43008x128.size a
  hwx1_2 : ∀ i : grid1.Coords, EltTy.bits .f32 = 32 ∨ (Rect.block (s := S43008x128) S1024x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S43008x128.size a
  hwx2_0 : ∀ i : grid2.Coords, EltTy.bits .f32 = 32 ∨ (Rect.block (s := S43008x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S43008x128.size a
  hwx2_2 : ∀ i : grid2.Coords, EltTy.bits .f32 = 32 ∨ (Rect.block (s := S43008x128) S1024x128.size (cc2_transform_2 i) (hinb2_2 i)).WholeWords (EltTy.packing .f32)

variable [Facts₀]

def scatter_S27094_S600000x1_S600000_n_0_0_1 : ScatterDims S27094 S600000x1 S600000 where
  updateWindowDims := []
  insertedWindowDims := [0]
  scatterDimsToOperandDims := [0]
  indexVectorDim := 1
  wf := scatter_S27094_S600000x1_S600000_n_0_0_1_wf
def scatter_S42852_S600000x1_S600000_n_0_0_1 : ScatterDims S42852 S600000x1 S600000 where
  updateWindowDims := []
  insertedWindowDims := [0]
  scatterDimsToOperandDims := [0]
  indexVectorDim := 1
  wf := scatter_S42852_S600000x1_S600000_n_0_0_1_wf
def gather_S27094_S600000x1_S600000_n_0_n_n_0_1_1 : GatherDims S27094 S600000x1 S600000 where
  offsetDims := []
  collapsedSliceDims := [0]
  operandBatchingDims := []
  startIndicesBatchingDims := []
  startIndexMap := [0]
  indexVectorDim := 1
  sliceSizes := ![1]
  wf := gather_S27094_S600000x1_S600000_n_0_n_n_0_1_1_wf
def gather_S42852_S600000x1_S600000_n_0_n_n_0_1_1 : GatherDims S42852 S600000x1 S600000 where
  offsetDims := []
  collapsedSliceDims := [0]
  operandBatchingDims := []
  startIndicesBatchingDims := []
  startIndexMap := [0]
  indexVectorDim := 1
  sliceSizes := ![1]
  wf := gather_S42852_S600000x1_S600000_n_0_n_n_0_1_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def scatter_S42852_S500000x1_S500000_n_0_0_1 : ScatterDims S42852 S500000x1 S500000 where
  updateWindowDims := []
  insertedWindowDims := [0]
  scatterDimsToOperandDims := [0]
  indexVectorDim := 1
  wf := scatter_S42852_S500000x1_S500000_n_0_0_1_wf
def gather_S42852_S500000x1_S500000_n_0_n_n_0_1_1 : GatherDims S42852 S500000x1 S500000 where
  offsetDims := []
  collapsedSliceDims := [0]
  operandBatchingDims := []
  startIndicesBatchingDims := []
  startIndexMap := [0]
  indexVectorDim := 1
  sliceSizes := ![1]
  wf := gather_S42852_S500000x1_S500000_n_0_n_n_0_1_1_wf
def gather_S42852x128_S500000x1_S500000x128_1_0_n_n_0_1_1128 : GatherDims S42852x128 S500000x1 S500000x128 where
  offsetDims := [1]
  collapsedSliceDims := [0]
  operandBatchingDims := []
  startIndicesBatchingDims := []
  startIndexMap := [0]
  indexVectorDim := 1
  sliceSizes := ![1, 128]
  wf := gather_S42852x128_S500000x1_S500000x128_1_0_n_n_0_1_1128_wf
def scatter_S42852x128_S500000x1_S500000x128_1_0_0_1 : ScatterDims S42852x128 S500000x1 S500000x128 where
  updateWindowDims := [1]
  insertedWindowDims := [0]
  scatterDimsToOperandDims := [0]
  indexVectorDim := 1
  wf := scatter_S42852x128_S500000x1_S500000x128_1_0_0_1_wf
def gather_S42852x128_S600000x1_S600000x128_1_0_n_n_0_1_1128 : GatherDims S42852x128 S600000x1 S600000x128 where
  offsetDims := [1]
  collapsedSliceDims := [0]
  operandBatchingDims := []
  startIndicesBatchingDims := []
  startIndexMap := [0]
  indexVectorDim := 1
  sliceSizes := ![1, 128]
  wf := gather_S42852x128_S600000x1_S600000x128_1_0_n_n_0_1_1128_wf
def scatter_S27094x128_S600000x1_S600000x128_1_0_0_1 : ScatterDims S27094x128 S600000x1 S600000x128 where
  updateWindowDims := [1]
  insertedWindowDims := [0]
  scatterDimsToOperandDims := [0]
  indexVectorDim := 1
  wf := scatter_S27094x128_S600000x1_S600000x128_1_0_0_1_wf
def gather_S27094x128_S600000x1_S600000x128_1_0_n_n_0_1_1128 : GatherDims S27094x128 S600000x1 S600000x128 where
  offsetDims := [1]
  collapsedSliceDims := [0]
  operandBatchingDims := []
  startIndicesBatchingDims := []
  startIndexMap := [0]
  indexVectorDim := 1
  sliceSizes := ![1, 128]
  wf := gather_S27094x128_S600000x1_S600000x128_1_0_n_n_0_1_1128_wf
def scatter_S42852x128_S600000x1_S600000x128_1_0_0_1 : ScatterDims S42852x128 S600000x1 S600000x128 where
  updateWindowDims := [1]
  insertedWindowDims := [0]
  scatterDimsToOperandDims := [0]
  indexVectorDim := 1
  wf := scatter_S42852x128_S600000x1_S600000x128_1_0_0_1_wf

abbrev win0_0 : Pipeline.Window sig grid0 :=
  Pipeline.Window.ofSpec (Memref.whole main_v30) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v246) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v247) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v300) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v301) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S42852x128 : Shape := ⟨2, ![42852, 128]⟩
abbrev S27094x128 : Shape := ⟨2, ![27094, 128]⟩
abbrev S128x128 : Shape := ⟨2, ![128, 128]⟩
abbrev S500000 : Shape := ⟨1, ![500000]⟩
abbrev S2x600000 : Shape := ⟨2, ![2, 600000]⟩
abbrev S2x500000 : Shape := ⟨2, ![2, 500000]⟩
abbrev S1x600000 : Shape := ⟨2, ![1, 600000]⟩
abbrev S600000 : Shape := ⟨1, ![600000]⟩
abbrev S_ : Shape := ⟨0, ![]⟩
abbrev S27094 : Shape := ⟨1, ![27094]⟩
abbrev S600000x1 : Shape := ⟨2, ![600000, 1]⟩
abbrev S42852 : Shape := ⟨1, ![42852]⟩
abbrev S1x500000 : Shape := ⟨2, ![1, 500000]⟩
abbrev S500000x1 : Shape := ⟨2, ![500000, 1]⟩
abbrev S500000x128 : Shape := ⟨2, ![500000, 128]⟩
abbrev S600000x128 : Shape := ⟨2, ![600000, 128]⟩

abbrev nBuf : Space → Nat
  | .hbm => 449
  | .vmem => 0
  | .smem => 0
  | _ => 0

abbrev hbmTy0_0 (i : Nat) : BufTy := match i % 128 with
  | 0 => ⟨S42852x128, .f32⟩
  | 1 => ⟨S27094x128, .f32⟩
  | 2 => ⟨S128x128, .f32⟩
  | 3 => ⟨S128x128, .f32⟩
  | 4 => ⟨S128x128, .f32⟩
  | 5 => ⟨S500000, .f32⟩
  | 6 => ⟨S500000, .f32⟩
  | 7 => ⟨S500000, .f32⟩
  | 8 => ⟨S2x600000, .i32⟩
  | 9 => ⟨S2x500000, .i32⟩
  | 10 => ⟨S2x500000, .i32⟩
  | 11 => ⟨S2x500000, .i32⟩
  | 12 => ⟨S1x600000, .i32⟩
  | 13 => ⟨S600000, .i32⟩
  | 14 => ⟨S1x600000, .i32⟩
  | 15 => ⟨S600000, .i32⟩
  | 16 => ⟨S_, .f32⟩
  | 17 => ⟨S600000, .f32⟩
  | 18 => ⟨S_, .f32⟩
  | 19 => ⟨S27094, .f32⟩
  | 20 => ⟨S600000x1, .i32⟩
  | 21 => ⟨S27094, .f32⟩
  | 22 => ⟨S_, .f32⟩
  | 23 => ⟨S42852, .f32⟩
  | 24 => ⟨S600000x1, .i32⟩
  | 25 => ⟨S42852, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000, .f32⟩
  | 44 => ⟨S600000, .f32⟩
  | 45 => ⟨S600000, .f32⟩
  | 46 => ⟨S_, .f32⟩
  | 47 => ⟨S600000, .f32⟩
  | 48 => ⟨S600000, .f32⟩
  | 49 => ⟨S600000x1, .f32⟩
  | 50 => ⟨S42852x128, .f32⟩
  | 51 => ⟨S1x500000, .i32⟩
  | 52 => ⟨S500000, .i32⟩
  | 53 => ⟨S_, .f32⟩
  | 54 => ⟨S42852, .f32⟩
  | 55 => ⟨S500000x1, .i32⟩
  | 56 => ⟨S42852, .f32⟩
  | 57 => ⟨S_, .f32⟩
  | 58 => ⟨S42852, .f32⟩
  | 59 => ⟨S42852, .i1⟩
  | 60 => ⟨S_, .f32⟩
  | 61 => ⟨S42852, .f32⟩
  | 62 => ⟨S42852, .f32⟩
  | 63 => ⟨S42852, .f32⟩
  | 64 => ⟨S_, .f32⟩
  | 65 => ⟨S_, .f32⟩
  | 66 => ⟨S42852, .f32⟩
  | 67 => ⟨S42852, .f32⟩
  | 68 => ⟨S1x500000, .i32⟩
  | 69 => ⟨S500000, .i32⟩
  | 70 => ⟨S_, .i32⟩
  | 71 => ⟨S500000, .i32⟩
  | 72 => ⟨S500000, .i1⟩
  | 73 => ⟨S_, .i32⟩
  | 74 => ⟨S500000, .i32⟩
  | 75 => ⟨S500000, .i32⟩
  | 76 => ⟨S500000, .i32⟩
  | 77 => ⟨S500000x1, .i32⟩
  | 78 => ⟨S500000, .f32⟩
  | 79 => ⟨S500000, .f32⟩
  | 80 => ⟨S1x500000, .i32⟩
  | 81 => ⟨S500000, .i32⟩
  | 82 => ⟨S_, .i32⟩
  | 83 => ⟨S500000, .i32⟩
  | 84 => ⟨S500000, .i1⟩
  | 85 => ⟨S_, .i32⟩
  | 86 => ⟨S500000, .i32⟩
  | 87 => ⟨S500000, .i32⟩
  | 88 => ⟨S500000, .i32⟩
  | 89 => ⟨S500000x1, .i32⟩
  | 90 => ⟨S500000, .f32⟩
  | 91 => ⟨S500000, .f32⟩
  | 92 => ⟨S500000x1, .f32⟩
  | 93 => ⟨S1x500000, .i32⟩
  | 94 => ⟨S500000, .i32⟩
  | 95 => ⟨S_, .i32⟩
  | 96 => ⟨S500000, .i32⟩
  | 97 => ⟨S500000, .i1⟩
  | 98 => ⟨S_, .i32⟩
  | 99 => ⟨S500000, .i32⟩
  | 100 => ⟨S500000, .i32⟩
  | 101 => ⟨S500000, .i32⟩
  | 102 => ⟨S500000x1, .i32⟩
  | 103 => ⟨S500000x128, .f32⟩
  | 104 => ⟨S500000x128, .f32⟩
  | 105 => ⟨S500000x128, .f32⟩
  | 106 => ⟨S1x500000, .i32⟩
  | 107 => ⟨S500000, .i32⟩
  | 108 => ⟨S_, .f32⟩
  | 109 => ⟨S42852x128, .f32⟩
  | 110 => ⟨S500000x1, .i32⟩
  | 111 => ⟨S42852x128, .f32⟩
  | 112 => ⟨S42852x128, .f32⟩
  | 113 => ⟨S_, .i32⟩
  | 114 => ⟨S600000, .i32⟩
  | 115 => ⟨S600000, .i1⟩
  | 116 => ⟨S_, .i32⟩
  | 117 => ⟨S600000, .i32⟩
  | 118 => ⟨S600000, .i32⟩
  | 119 => ⟨S600000, .i32⟩
  | 120 => ⟨S600000x1, .i32⟩
  | 121 => ⟨S600000x128, .f32⟩
  | 122 => ⟨S600000x128, .f32⟩
  | 123 => ⟨S600000x128, .f32⟩
  | 124 => ⟨S_, .f32⟩
  | 125 => ⟨S27094x128, .f32⟩
  | 126 => ⟨S600000x1, .i32⟩
  | 127 => ⟨S27094x128, .f32⟩
  | _ => ⟨S42852x128, .f32⟩

abbrev hbmTy0_1 (i : Nat) : BufTy := match i % 128 with
  | 0 => ⟨S_, .i32⟩
  | 1 => ⟨S600000, .i32⟩
  | 2 => ⟨S600000, .i1⟩
  | 3 => ⟨S_, .i32⟩
  | 4 => ⟨S600000, .i32⟩
  | 5 => ⟨S600000, .i32⟩
  | 6 => ⟨S600000, .i32⟩
  | 7 => ⟨S600000x1, .i32⟩
  | 8 => ⟨S600000x128, .f32⟩
  | 9 => ⟨S600000x128, .f32⟩
  | 10 => ⟨S600000x128, .f32⟩
  | 11 => ⟨S_, .f32⟩
  | 12 => ⟨S42852x128, .f32⟩
  | 13 => ⟨S600000x1, .i32⟩
  | 14 => ⟨S42852x128, .f32⟩
  | 15 => ⟨S42852x128, .f32⟩
  | 16 => ⟨S27094x128, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x128, .f32⟩
  | 26 => ⟨S600000x128, .f32⟩
  | 27 => ⟨S600000x128, .f32⟩
  | 28 => ⟨S_, .f32⟩
  | 29 => ⟨S27094x128, .f32⟩
  | 30 => ⟨S600000x1, .i32⟩
  | 31 => ⟨S27094x128, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x128, .f32⟩
  | 41 => ⟨S600000x128, .f32⟩
  | 42 => ⟨S600000x128, .f32⟩
  | 43 => ⟨S_, .f32⟩
  | 44 => ⟨S42852x128, .f32⟩
  | 45 => ⟨S600000x1, .i32⟩
  | 46 => ⟨S42852x128, .f32⟩
  | 47 => ⟨S42852x128, .f32⟩
  | 48 => ⟨S27094x128, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x128, .f32⟩
  | 58 => ⟨S600000x128, .f32⟩
  | 59 => ⟨S600000x128, .f32⟩
  | 60 => ⟨S_, .f32⟩
  | 61 => ⟨S27094x128, .f32⟩
  | 62 => ⟨S600000x1, .i32⟩
  | 63 => ⟨S27094x128, .f32⟩
  | 64 => ⟨S_, .i32⟩
  | 65 => ⟨S600000, .i32⟩
  | 66 => ⟨S600000, .i1⟩
  | 67 => ⟨S_, .i32⟩
  | 68 => ⟨S600000, .i32⟩
  | 69 => ⟨S600000, .i32⟩
  | 70 => ⟨S600000, .i32⟩
  | 71 => ⟨S600000x1, .i32⟩
  | 72 => ⟨S600000x128, .f32⟩
  | 73 => ⟨S600000x128, .f32⟩
  | 74 => ⟨S600000x128, .f32⟩
  | 75 => ⟨S_, .f32⟩
  | 76 => ⟨S42852x128, .f32⟩
  | 77 => ⟨S600000x1, .i32⟩
  | 78 => ⟨S42852x128, .f32⟩
  | 79 => ⟨S42852x128, .f32⟩
  | 80 => ⟨S27094x128, .f32⟩
  | 81 => ⟨S_, .f32⟩
  | 82 => ⟨S42852x128, .f32⟩
  | 83 => ⟨S42852x128, .f32⟩
  | 84 => ⟨S_, .f32⟩
  | 85 => ⟨S27094x128, .f32⟩
  | 86 => ⟨S27094x128, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i32⟩
  | 93 => ⟨S600000, .i32⟩
  | 94 => ⟨S600000x1, .i32⟩
  | 95 => ⟨S600000x128, .f32⟩
  | 96 => ⟨S600000x128, .f32⟩
  | 97 => ⟨S600000x128, .f32⟩
  | 98 => ⟨S_, .f32⟩
  | 99 => ⟨S27094x128, .f32⟩
  | 100 => ⟨S600000x1, .i32⟩
  | 101 => ⟨S27094x128, .f32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000x128, .f32⟩
  | 111 => ⟨S600000x128, .f32⟩
  | 112 => ⟨S600000x128, .f32⟩
  | 113 => ⟨S_, .f32⟩
  | 114 => ⟨S42852x128, .f32⟩
  | 115 => ⟨S600000x1, .i32⟩
  | 116 => ⟨S42852x128, .f32⟩
  | 117 => ⟨S42852x128, .f32⟩
  | 118 => ⟨S27094x128, .f32⟩
  | 119 => ⟨S_, .i32⟩
  | 120 => ⟨S600000, .i32⟩
  | 121 => ⟨S600000, .i1⟩
  | 122 => ⟨S_, .i32⟩
  | 123 => ⟨S600000, .i32⟩
  | 124 => ⟨S600000, .i32⟩
  | 125 => ⟨S600000, .i32⟩
  | 126 => ⟨S600000x1, .i32⟩
  | 127 => ⟨S600000x128, .f32⟩
  | _ => ⟨S42852x128, .f32⟩

abbrev hbmTy0_2 (i : Nat) : BufTy := match i % 128 with
  | 0 => ⟨S600000x128, .f32⟩
  | 1 => ⟨S600000x128, .f32⟩
  | 2 => ⟨S_, .f32⟩
  | 3 => ⟨S27094x128, .f32⟩
  | 4 => ⟨S600000x1, .i32⟩
  | 5 => ⟨S27094x128, .f32⟩
  | 6 => ⟨S_, .i32⟩
  | 7 => ⟨S600000, .i32⟩
  | 8 => ⟨S600000, .i1⟩
  | 9 => ⟨S_, .i32⟩
  | 10 => ⟨S600000, .i32⟩
  | 11 => ⟨S600000, .i32⟩
  | 12 => ⟨S600000, .i32⟩
  | 13 => ⟨S600000x1, .i32⟩
  | 14 => ⟨S600000x128, .f32⟩
  | 15 => ⟨S600000x128, .f32⟩
  | 16 => ⟨S600000x128, .f32⟩
  | 17 => ⟨S_, .f32⟩
  | 18 => ⟨S42852x128, .f32⟩
  | 19 => ⟨S600000x1, .i32⟩
  | 20 => ⟨S42852x128, .f32⟩
  | 21 => ⟨S42852x128, .f32⟩
  | 22 => ⟨S27094x128, .f32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S600000x128, .f32⟩
  | 33 => ⟨S600000x128, .f32⟩
  | 34 => ⟨S_, .f32⟩
  | 35 => ⟨S27094x128, .f32⟩
  | 36 => ⟨S600000x1, .i32⟩
  | 37 => ⟨S27094x128, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x128, .f32⟩
  | 47 => ⟨S600000x128, .f32⟩
  | 48 => ⟨S600000x128, .f32⟩
  | 49 => ⟨S_, .f32⟩
  | 50 => ⟨S42852x128, .f32⟩
  | 51 => ⟨S600000x1, .i32⟩
  | 52 => ⟨S42852x128, .f32⟩
  | 53 => ⟨S42852x128, .f32⟩
  | 54 => ⟨S27094x128, .f32⟩
  | 55 => ⟨S_, .f32⟩
  | 56 => ⟨S42852x128, .f32⟩
  | 57 => ⟨S42852x128, .f32⟩
  | 58 => ⟨S_, .f32⟩
  | 59 => ⟨S27094x128, .f32⟩
  | 60 => ⟨S27094x128, .f32⟩
  | 61 => ⟨S42852x128, .f32⟩
  | 62 => ⟨S1x500000, .i32⟩
  | 63 => ⟨S500000, .i32⟩
  | 64 => ⟨S_, .f32⟩
  | 65 => ⟨S42852, .f32⟩
  | 66 => ⟨S500000x1, .i32⟩
  | 67 => ⟨S42852, .f32⟩
  | 68 => ⟨S_, .f32⟩
  | 69 => ⟨S42852, .f32⟩
  | 70 => ⟨S42852, .i1⟩
  | 71 => ⟨S_, .f32⟩
  | 72 => ⟨S42852, .f32⟩
  | 73 => ⟨S42852, .f32⟩
  | 74 => ⟨S42852, .f32⟩
  | 75 => ⟨S_, .f32⟩
  | 76 => ⟨S_, .f32⟩
  | 77 => ⟨S42852, .f32⟩
  | 78 => ⟨S42852, .f32⟩
  | 79 => ⟨S1x500000, .i32⟩
  | 80 => ⟨S500000, .i32⟩
  | 81 => ⟨S_, .i32⟩
  | 82 => ⟨S500000, .i32⟩
  | 83 => ⟨S500000, .i1⟩
  | 84 => ⟨S_, .i32⟩
  | 85 => ⟨S500000, .i32⟩
  | 86 => ⟨S500000, .i32⟩
  | 87 => ⟨S500000, .i32⟩
  | 88 => ⟨S500000x1, .i32⟩
  | 89 => ⟨S500000, .f32⟩
  | 90 => ⟨S500000, .f32⟩
  | 91 => ⟨S1x500000, .i32⟩
  | 92 => ⟨S500000, .i32⟩
  | 93 => ⟨S_, .i32⟩
  | 94 => ⟨S500000, .i32⟩
  | 95 => ⟨S500000, .i1⟩
  | 96 => ⟨S_, .i32⟩
  | 97 => ⟨S500000, .i32⟩
  | 98 => ⟨S500000, .i32⟩
  | 99 => ⟨S500000, .i32⟩
  | 100 => ⟨S500000x1, .i32⟩
  | 101 => ⟨S500000, .f32⟩
  | 102 => ⟨S500000, .f32⟩
  | 103 => ⟨S500000x1, .f32⟩
  | 104 => ⟨S1x500000, .i32⟩
  | 105 => ⟨S500000, .i32⟩
  | 106 => ⟨S_, .i32⟩
  | 107 => ⟨S500000, .i32⟩
  | 108 => ⟨S500000, .i1⟩
  | 109 => ⟨S_, .i32⟩
  | 110 => ⟨S500000, .i32⟩
  | 111 => ⟨S500000, .i32⟩
  | 112 => ⟨S500000, .i32⟩
  | 113 => ⟨S500000x1, .i32⟩
  | 114 => ⟨S500000x128, .f32⟩
  | 115 => ⟨S500000x128, .f32⟩
  | 116 => ⟨S500000x128, .f32⟩
  | 117 => ⟨S1x500000, .i32⟩
  | 118 => ⟨S500000, .i32⟩
  | 119 => ⟨S_, .f32⟩
  | 120 => ⟨S42852x128, .f32⟩
  | 121 => ⟨S500000x1, .i32⟩
  | 122 => ⟨S42852x128, .f32⟩
  | 123 => ⟨S_, .f32⟩
  | 124 => ⟨S42852x128, .f32⟩
  | 125 => ⟨S42852x128, .f32⟩
  | 126 => ⟨S42852x128, .f32⟩
  | 127 => ⟨S42852x128, .f32⟩
  | _ => ⟨S42852x128, .f32⟩

abbrev hbmTy0_3 (i : Nat) : BufTy := match i % 128 with
  | 0 => ⟨S1x500000, .i32⟩
  | 1 => ⟨S500000, .i32⟩
  | 2 => ⟨S_, .f32⟩
  | 3 => ⟨S42852, .f32⟩
  | 4 => ⟨S500000x1, .i32⟩
  | 5 => ⟨S42852, .f32⟩
  | 6 => ⟨S_, .f32⟩
  | 7 => ⟨S42852, .f32⟩
  | 8 => ⟨S42852, .i1⟩
  | 9 => ⟨S_, .f32⟩
  | 10 => ⟨S42852, .f32⟩
  | 11 => ⟨S42852, .f32⟩
  | 12 => ⟨S42852, .f32⟩
  | 13 => ⟨S_, .f32⟩
  | 14 => ⟨S_, .f32⟩
  | 15 => ⟨S42852, .f32⟩
  | 16 => ⟨S42852, .f32⟩
  | 17 => ⟨S1x500000, .i32⟩
  | 18 => ⟨S500000, .i32⟩
  | 19 => ⟨S_, .i32⟩
  | 20 => ⟨S500000, .i32⟩
  | 21 => ⟨S500000, .i1⟩
  | 22 => ⟨S_, .i32⟩
  | 23 => ⟨S500000, .i32⟩
  | 24 => ⟨S500000, .i32⟩
  | 25 => ⟨S500000, .i32⟩
  | 26 => ⟨S500000x1, .i32⟩
  | 27 => ⟨S500000, .f32⟩
  | 28 => ⟨S500000, .f32⟩
  | 29 => ⟨S1x500000, .i32⟩
  | 30 => ⟨S500000, .i32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000, .f32⟩
  | 40 => ⟨S500000, .f32⟩
  | 41 => ⟨S500000x1, .f32⟩
  | 42 => ⟨S1x500000, .i32⟩
  | 43 => ⟨S500000, .i32⟩
  | 44 => ⟨S_, .i32⟩
  | 45 => ⟨S500000, .i32⟩
  | 46 => ⟨S500000, .i1⟩
  | 47 => ⟨S_, .i32⟩
  | 48 => ⟨S500000, .i32⟩
  | 49 => ⟨S500000, .i32⟩
  | 50 => ⟨S500000, .i32⟩
  | 51 => ⟨S500000x1, .i32⟩
  | 52 => ⟨S500000x128, .f32⟩
  | 53 => ⟨S500000x128, .f32⟩
  | 54 => ⟨S500000x128, .f32⟩
  | 55 => ⟨S1x500000, .i32⟩
  | 56 => ⟨S500000, .i32⟩
  | 57 => ⟨S_, .f32⟩
  | 58 => ⟨S42852x128, .f32⟩
  | 59 => ⟨S500000x1, .i32⟩
  | 60 => ⟨S42852x128, .f32⟩
  | 61 => ⟨S_, .f32⟩
  | 62 => ⟨S42852x128, .f32⟩
  | 63 => ⟨S42852x128, .f32⟩
  | 64 => ⟨S42852x128, .f32⟩
  | _ => ⟨S42852x128, .f32⟩

abbrev hbmTy (i : Nat) : BufTy := match i / 128 with
  | 0 => hbmTy0_0 i
  | 1 => hbmTy0_1 i
  | 2 => hbmTy0_2 i
  | 3 => hbmTy0_3 i
  | _ => ⟨S42852x128, .f32⟩

abbrev bufTy : (tb : Table) → Fin (tcTables nBuf tb) → BufTy
  | .hbm, ⟨i, _⟩ => hbmTy i
  | _, _ => ⟨S42852x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_call0_v0 : Ref sig .tc := ⟨.hbm, 65, rfl⟩
abbrev main_call0_v1 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_v44 : Ref sig .tc := ⟨.hbm, 71, rfl⟩
abbrev main_v45 : Ref sig .tc := ⟨.hbm, 72, rfl⟩
abbrev main_c_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_12 : Ref sig .tc := ⟨.hbm, 82, rfl⟩
abbrev main_v54 : Ref sig .tc := ⟨.hbm, 83, rfl⟩
abbrev main_v55 : Ref sig .tc := ⟨.hbm, 84, rfl⟩
abbrev main_c_13 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_14 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_16 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_17 : Ref sig .tc := ⟨.hbm, 113, rfl⟩
abbrev main_v80 : Ref sig .tc := ⟨.hbm, 114, rfl⟩
abbrev main_v81 : Ref sig .tc := ⟨.hbm, 115, rfl⟩
abbrev main_c_18 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_c_20 : Ref sig .tc := ⟨.hbm, 128, rfl⟩
abbrev main_v92 : Ref sig .tc := ⟨.hbm, 129, rfl⟩
abbrev main_v93 : Ref sig .tc := ⟨.hbm, 130, rfl⟩
abbrev main_c_21 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_22 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_c_23 : Ref sig .tc := ⟨.hbm, 145, rfl⟩
abbrev main_v106 : Ref sig .tc := ⟨.hbm, 146, rfl⟩
abbrev main_v107 : Ref sig .tc := ⟨.hbm, 147, rfl⟩
abbrev main_c_24 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_25 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_c_26 : Ref sig .tc := ⟨.hbm, 160, rfl⟩
abbrev main_v118 : Ref sig .tc := ⟨.hbm, 161, rfl⟩
abbrev main_v119 : Ref sig .tc := ⟨.hbm, 162, rfl⟩
abbrev main_c_27 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_28 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_c_29 : Ref sig .tc := ⟨.hbm, 177, rfl⟩
abbrev main_v132 : Ref sig .tc := ⟨.hbm, 178, rfl⟩
abbrev main_v133 : Ref sig .tc := ⟨.hbm, 179, rfl⟩
abbrev main_c_30 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_cst_31 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_c_32 : Ref sig .tc := ⟨.hbm, 192, rfl⟩
abbrev main_v144 : Ref sig .tc := ⟨.hbm, 193, rfl⟩
abbrev main_v145 : Ref sig .tc := ⟨.hbm, 194, rfl⟩
abbrev main_c_33 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_cst_34 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_cst_35 : Ref sig .tc := ⟨.hbm, 209, rfl⟩
abbrev main_v158 : Ref sig .tc := ⟨.hbm, 210, rfl⟩
abbrev main_v159 : Ref sig .tc := ⟨.hbm, 211, rfl⟩
abbrev main_cst_36 : Ref sig .tc := ⟨.hbm, 212, rfl⟩
abbrev main_v160 : Ref sig .tc := ⟨.hbm, 213, rfl⟩
abbrev main_v161 : Ref sig .tc := ⟨.hbm, 214, rfl⟩
abbrev main_c_37 : Ref sig .tc := ⟨.hbm, 215, rfl⟩
abbrev main_v162 : Ref sig .tc := ⟨.hbm, 216, rfl⟩
abbrev main_v163 : Ref sig .tc := ⟨.hbm, 217, rfl⟩
abbrev main_c_38 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_cst_39 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_c_40 : Ref sig .tc := ⟨.hbm, 230, rfl⟩
abbrev main_v174 : Ref sig .tc := ⟨.hbm, 231, rfl⟩
abbrev main_v175 : Ref sig .tc := ⟨.hbm, 232, rfl⟩
abbrev main_c_41 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_cst_42 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_c_43 : Ref sig .tc := ⟨.hbm, 247, rfl⟩
abbrev main_v188 : Ref sig .tc := ⟨.hbm, 248, rfl⟩
abbrev main_v189 : Ref sig .tc := ⟨.hbm, 249, rfl⟩
abbrev main_c_44 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_cst_45 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_c_46 : Ref sig .tc := ⟨.hbm, 262, rfl⟩
abbrev main_v200 : Ref sig .tc := ⟨.hbm, 263, rfl⟩
abbrev main_v201 : Ref sig .tc := ⟨.hbm, 264, rfl⟩
abbrev main_c_47 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_cst_48 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_c_49 : Ref sig .tc := ⟨.hbm, 279, rfl⟩
abbrev main_v214 : Ref sig .tc := ⟨.hbm, 280, rfl⟩
abbrev main_v215 : Ref sig .tc := ⟨.hbm, 281, rfl⟩
abbrev main_c_50 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_cst_51 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_c_52 : Ref sig .tc := ⟨.hbm, 294, rfl⟩
abbrev main_v226 : Ref sig .tc := ⟨.hbm, 295, rfl⟩
abbrev main_v227 : Ref sig .tc := ⟨.hbm, 296, rfl⟩
abbrev main_c_53 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_cst_54 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_cst_55 : Ref sig .tc := ⟨.hbm, 311, rfl⟩
abbrev main_v240 : Ref sig .tc := ⟨.hbm, 312, rfl⟩
abbrev main_v241 : Ref sig .tc := ⟨.hbm, 313, rfl⟩
abbrev main_cst_56 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_cst_57 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_cst_58 : Ref sig .tc := ⟨.hbm, 324, rfl⟩
abbrev main_v250 : Ref sig .tc := ⟨.hbm, 325, rfl⟩
abbrev main_v251 : Ref sig .tc := ⟨.hbm, 326, rfl⟩
abbrev main_cst_59 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_cst_60 : Ref sig .tc := ⟨.hbm, 331, rfl⟩
abbrev main_call1_v0 : Ref sig .tc := ⟨.hbm, 332, rfl⟩
abbrev main_call1_v1 : Ref sig .tc := ⟨.hbm, 333, rfl⟩
abbrev main_v255 : Ref sig .tc := ⟨.hbm, 334, rfl⟩
abbrev main_v256 : Ref sig .tc := ⟨.hbm, 335, rfl⟩
abbrev main_v257 : Ref sig .tc := ⟨.hbm, 336, rfl⟩
abbrev main_c_61 : Ref sig .tc := ⟨.hbm, 337, rfl⟩
abbrev main_v258 : Ref sig .tc := ⟨.hbm, 338, rfl⟩
abbrev main_v259 : Ref sig .tc := ⟨.hbm, 339, rfl⟩
abbrev main_c_62 : Ref sig .tc := ⟨.hbm, 340, rfl⟩
abbrev main_v260 : Ref sig .tc := ⟨.hbm, 341, rfl⟩
abbrev main_v261 : Ref sig .tc := ⟨.hbm, 342, rfl⟩
abbrev main_v262 : Ref sig .tc := ⟨.hbm, 343, rfl⟩
abbrev main_v263 : Ref sig .tc := ⟨.hbm, 344, rfl⟩
abbrev main_v264 : Ref sig .tc := ⟨.hbm, 345, rfl⟩
abbrev main_v265 : Ref sig .tc := ⟨.hbm, 346, rfl⟩
abbrev main_v266 : Ref sig .tc := ⟨.hbm, 347, rfl⟩
abbrev main_v267 : Ref sig .tc := ⟨.hbm, 348, rfl⟩
abbrev main_c_63 : Ref sig .tc := ⟨.hbm, 349, rfl⟩
abbrev main_v268 : Ref sig .tc := ⟨.hbm, 350, rfl⟩
abbrev main_v269 : Ref sig .tc := ⟨.hbm, 351, rfl⟩
abbrev main_c_64 : Ref sig .tc := ⟨.hbm, 352, rfl⟩
abbrev main_v270 : Ref sig .tc := ⟨.hbm, 353, rfl⟩
abbrev main_v271 : Ref sig .tc := ⟨.hbm, 354, rfl⟩
abbrev main_v272 : Ref sig .tc := ⟨.hbm, 355, rfl⟩
abbrev main_v273 : Ref sig .tc := ⟨.hbm, 356, rfl⟩
abbrev main_v274 : Ref sig .tc := ⟨.hbm, 357, rfl⟩
abbrev main_v275 : Ref sig .tc := ⟨.hbm, 358, rfl⟩
abbrev main_v276 : Ref sig .tc := ⟨.hbm, 359, rfl⟩
abbrev main_v277 : Ref sig .tc := ⟨.hbm, 360, rfl⟩
abbrev main_v278 : Ref sig .tc := ⟨.hbm, 361, rfl⟩
abbrev main_c_65 : Ref sig .tc := ⟨.hbm, 362, rfl⟩
abbrev main_v279 : Ref sig .tc := ⟨.hbm, 363, rfl⟩
abbrev main_v280 : Ref sig .tc := ⟨.hbm, 364, rfl⟩
abbrev main_c_66 : Ref sig .tc := ⟨.hbm, 365, rfl⟩
abbrev main_v281 : Ref sig .tc := ⟨.hbm, 366, rfl⟩
abbrev main_v282 : Ref sig .tc := ⟨.hbm, 367, rfl⟩
abbrev main_v283 : Ref sig .tc := ⟨.hbm, 368, rfl⟩
abbrev main_v284 : Ref sig .tc := ⟨.hbm, 369, rfl⟩
abbrev main_v285 : Ref sig .tc := ⟨.hbm, 370, rfl⟩
abbrev main_v286 : Ref sig .tc := ⟨.hbm, 371, rfl⟩
abbrev main_v287 : Ref sig .tc := ⟨.hbm, 372, rfl⟩
abbrev main_v288 : Ref sig .tc := ⟨.hbm, 373, rfl⟩
abbrev main_v289 : Ref sig .tc := ⟨.hbm, 374, rfl⟩
abbrev main_cst_67 : Ref sig .tc := ⟨.hbm, 375, rfl⟩
abbrev main_v290 : Ref sig .tc := ⟨.hbm, 376, rfl⟩
abbrev main_v291 : Ref sig .tc := ⟨.hbm, 377, rfl⟩
abbrev main_v292 : Ref sig .tc := ⟨.hbm, 378, rfl⟩
abbrev main_cst_68 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_v296 : Ref sig .tc := ⟨.hbm, 383, rfl⟩
abbrev main_v297 : Ref sig .tc := ⟨.hbm, 384, rfl⟩
abbrev main_v298 : Ref sig .tc := ⟨.hbm, 385, rfl⟩
abbrev main_cst_69 : Ref sig .tc := ⟨.hbm, 386, rfl⟩
abbrev main_v299 : Ref sig .tc := ⟨.hbm, 387, rfl⟩
abbrev main_v300 : Ref sig .tc := ⟨.hbm, 388, rfl⟩
abbrev main_v301 : Ref sig .tc := ⟨.hbm, 389, rfl⟩
abbrev main_cst_70 : Ref sig .tc := ⟨.hbm, 390, rfl⟩
abbrev main_v302 : Ref sig .tc := ⟨.hbm, 391, rfl⟩
abbrev main_v303 : Ref sig .tc := ⟨.hbm, 392, rfl⟩
abbrev main_cst_71 : Ref sig .tc := ⟨.hbm, 393, rfl⟩
abbrev main_v304 : Ref sig .tc := ⟨.hbm, 394, rfl⟩
abbrev main_v305 : Ref sig .tc := ⟨.hbm, 395, rfl⟩
abbrev main_v306 : Ref sig .tc := ⟨.hbm, 396, rfl⟩
abbrev main_cst_72 : Ref sig .tc := ⟨.hbm, 397, rfl⟩
abbrev main_call2_v0 : Ref sig .tc := ⟨.hbm, 398, rfl⟩
abbrev main_call2_v1 : Ref sig .tc := ⟨.hbm, 399, rfl⟩
abbrev main_v307 : Ref sig .tc := ⟨.hbm, 400, rfl⟩
abbrev main_v308 : Ref sig .tc := ⟨.hbm, 401, rfl⟩
abbrev main_v309 : Ref sig .tc := ⟨.hbm, 402, rfl⟩
abbrev main_c_73 : Ref sig .tc := ⟨.hbm, 403, rfl⟩
abbrev main_v310 : Ref sig .tc := ⟨.hbm, 404, rfl⟩
abbrev main_v311 : Ref sig .tc := ⟨.hbm, 405, rfl⟩
abbrev main_c_74 : Ref sig .tc := ⟨.hbm, 406, rfl⟩
abbrev main_v312 : Ref sig .tc := ⟨.hbm, 407, rfl⟩
abbrev main_v313 : Ref sig .tc := ⟨.hbm, 408, rfl⟩
abbrev main_v314 : Ref sig .tc := ⟨.hbm, 409, rfl⟩
abbrev main_v315 : Ref sig .tc := ⟨.hbm, 410, rfl⟩
abbrev main_v316 : Ref sig .tc := ⟨.hbm, 411, rfl⟩
abbrev main_v317 : Ref sig .tc := ⟨.hbm, 412, rfl⟩
abbrev main_v318 : Ref sig .tc := ⟨.hbm, 413, rfl⟩
abbrev main_v319 : Ref sig .tc := ⟨.hbm, 414, rfl⟩
abbrev main_c_75 : Ref sig .tc := ⟨.hbm, 415, rfl⟩
abbrev main_v320 : Ref sig .tc := ⟨.hbm, 416, rfl⟩
abbrev main_v321 : Ref sig .tc := ⟨.hbm, 417, rfl⟩
abbrev main_c_76 : Ref sig .tc := ⟨.hbm, 418, rfl⟩
abbrev main_v322 : Ref sig .tc := ⟨.hbm, 419, rfl⟩
abbrev main_v323 : Ref sig .tc := ⟨.hbm, 420, rfl⟩
abbrev main_v324 : Ref sig .tc := ⟨.hbm, 421, rfl⟩
abbrev main_v325 : Ref sig .tc := ⟨.hbm, 422, rfl⟩
abbrev main_v326 : Ref sig .tc := ⟨.hbm, 423, rfl⟩
abbrev main_v327 : Ref sig .tc := ⟨.hbm, 424, rfl⟩
abbrev main_v328 : Ref sig .tc := ⟨.hbm, 425, rfl⟩
abbrev main_v329 : Ref sig .tc := ⟨.hbm, 426, rfl⟩
abbrev main_v330 : Ref sig .tc := ⟨.hbm, 427, rfl⟩
abbrev main_c_77 : Ref sig .tc := ⟨.hbm, 428, rfl⟩
abbrev main_v331 : Ref sig .tc := ⟨.hbm, 429, rfl⟩
abbrev main_v332 : Ref sig .tc := ⟨.hbm, 430, rfl⟩
abbrev main_c_78 : Ref sig .tc := ⟨.hbm, 431, rfl⟩
abbrev main_v333 : Ref sig .tc := ⟨.hbm, 432, rfl⟩
abbrev main_v334 : Ref sig .tc := ⟨.hbm, 433, rfl⟩
abbrev main_v335 : Ref sig .tc := ⟨.hbm, 434, rfl⟩
abbrev main_v336 : Ref sig .tc := ⟨.hbm, 435, rfl⟩
abbrev main_v337 : Ref sig .tc := ⟨.hbm, 436, rfl⟩
abbrev main_v338 : Ref sig .tc := ⟨.hbm, 437, rfl⟩
abbrev main_v339 : Ref sig .tc := ⟨.hbm, 438, rfl⟩
abbrev main_v340 : Ref sig .tc := ⟨.hbm, 439, rfl⟩
abbrev main_v341 : Ref sig .tc := ⟨.hbm, 440, rfl⟩
abbrev main_cst_79 : Ref sig .tc := ⟨.hbm, 441, rfl⟩
abbrev main_v342 : Ref sig .tc := ⟨.hbm, 442, rfl⟩
abbrev main_v343 : Ref sig .tc := ⟨.hbm, 443, rfl⟩
abbrev main_v344 : Ref sig .tc := ⟨.hbm, 444, rfl⟩
abbrev main_cst_80 : Ref sig .tc := ⟨.hbm, 445, rfl⟩
abbrev main_v345 : Ref sig .tc := ⟨.hbm, 446, rfl⟩
abbrev main_v346 : Ref sig .tc := ⟨.hbm, 447, rfl⟩
abbrev main_v347 : Ref sig .tc := ⟨.hbm, 448, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S27094 : S_.BroadcastsInDim S27094 (![] : Fin 0 → Fin S27094.rank)
  bcast_S600000_S600000x1_0 : S600000.BroadcastsInDim S600000x1 (![0] : Fin 1 → Fin S600000x1.rank)
  bcast_S_S42852 : S_.BroadcastsInDim S42852 (![] : Fin 0 → Fin S42852.rank)
  slices_S2x500000_S1x500000_1_0 : S2x500000.Slices ![1, 0] S1x500000
  shapeCasts_S1x500000_S500000 : S1x500000.ShapeCasts S500000
  bcast_S500000_S500000x1_0 : S500000.BroadcastsInDim S500000x1 (![0] : Fin 1 → Fin S500000x1.rank)
  slices_S2x500000_S1x500000_0_0 : S2x500000.Slices ![0, 0] S1x500000
  bcast_S_S500000 : S_.BroadcastsInDim S500000 (![] : Fin 0 → Fin S500000.rank)
  bcast_S500000x1_S500000x128_0_1 : S500000x1.BroadcastsInDim S500000x128 (![0, 1] : Fin 2 → Fin S500000x128.rank)
  bcast_S_S42852x128 : S_.BroadcastsInDim S42852x128 (![] : Fin 0 → Fin S42852x128.rank)
  bcast_S600000x1_S600000x128_0_1 : S600000x1.BroadcastsInDim S600000x128 (![0, 1] : Fin 2 → Fin S600000x128.rank)
  bcast_S_S27094x128 : S_.BroadcastsInDim S27094x128 (![] : Fin 0 → Fin S27094x128.rank)
  scatter_S27094_S600000x1_S600000_n_0_0_1_wf : ScatterDims.WF S27094 S600000x1 S600000 [] [0] [0] 1
  scatter_S42852_S600000x1_S600000_n_0_0_1_wf : ScatterDims.WF S42852 S600000x1 S600000 [] [0] [0] 1
  gather_S27094_S600000x1_S600000_n_0_n_n_0_1_1_wf : GatherDims.WF S27094 S600000x1 S600000 [] [0] [] [0] [] 1 ![1]
  gather_S42852_S600000x1_S600000_n_0_n_n_0_1_1_wf : GatherDims.WF S42852 S600000x1 S600000 [] [0] [] [0] [] 1 ![1]
  dot_S42852x128_S128x128_S42852x128_1_0_0_1_n_n_wf : DotDims.WF S42852x128 S128x128 S42852x128 [1] [0] [0] [1] [] []
  scatter_S42852_S500000x1_S500000_n_0_0_1_wf : ScatterDims.WF S42852 S500000x1 S500000 [] [0] [0] 1
  gather_S42852_S500000x1_S500000_n_0_n_n_0_1_1_wf : GatherDims.WF S42852 S500000x1 S500000 [] [0] [] [0] [] 1 ![1]
  gather_S42852x128_S500000x1_S500000x128_1_0_n_n_0_1_1128_wf : GatherDims.WF S42852x128 S500000x1 S500000x128 [1] [0] [] [0] [] 1 ![1, 128]
  scatter_S42852x128_S500000x1_S500000x128_1_0_0_1_wf : ScatterDims.WF S42852x128 S500000x1 S500000x128 [1] [0] [0] 1
  gather_S42852x128_S600000x1_S600000x128_1_0_n_n_0_1_1128_wf : GatherDims.WF S42852x128 S600000x1 S600000x128 [1] [0] [] [0] [] 1 ![1, 128]
  scatter_S27094x128_S600000x1_S600000x128_1_0_0_1_wf : ScatterDims.WF S27094x128 S600000x1 S600000x128 [1] [0] [0] 1
  gather_S27094x128_S600000x1_S600000x128_1_0_n_n_0_1_1128_wf : GatherDims.WF S27094x128 S600000x1 S600000x128 [1] [0] [] [0] [] 1 ![1, 128]
  scatter_S42852x128_S600000x1_S600000x128_1_0_0_1_wf : ScatterDims.WF S42852x128 S600000x1 S600000x128 [1] [0] [0] 1

variable [Facts₀]

def scatter_S27094_S600000x1_S600000_n_0_0_1 : ScatterDims S27094 S600000x1 S600000 where
  updateWindowDims := []
  insertedWindowDims := [0]
  scatterDimsToOperandDims := [0]
  indexVectorDim := 1
  wf := scatter_S27094_S600000x1_S600000_n_0_0_1_wf
def scatter_S42852_S600000x1_S600000_n_0_0_1 : ScatterDims S42852 S600000x1 S600000 where
  updateWindowDims := []
  insertedWindowDims := [0]
  scatterDimsToOperandDims := [0]
  indexVectorDim := 1
  wf := scatter_S42852_S600000x1_S600000_n_0_0_1_wf
def gather_S27094_S600000x1_S600000_n_0_n_n_0_1_1 : GatherDims S27094 S600000x1 S600000 where
  offsetDims := []
  collapsedSliceDims := [0]
  operandBatchingDims := []
  startIndicesBatchingDims := []
  startIndexMap := [0]
  indexVectorDim := 1
  sliceSizes := ![1]
  wf := gather_S27094_S600000x1_S600000_n_0_n_n_0_1_1_wf
def gather_S42852_S600000x1_S600000_n_0_n_n_0_1_1 : GatherDims S42852 S600000x1 S600000 where
  offsetDims := []
  collapsedSliceDims := [0]
  operandBatchingDims := []
  startIndicesBatchingDims := []
  startIndexMap := [0]
  indexVectorDim := 1
  sliceSizes := ![1]
  wf := gather_S42852_S600000x1_S600000_n_0_n_n_0_1_1_wf
def dot_S42852x128_S128x128_S42852x128_1_0_0_1_n_n : DotDims S42852x128 S128x128 S42852x128 where
  lhsContracting := [1]
  rhsContracting := [0]
  lhsNonContracting := [0]
  rhsNonContracting := [1]
  lhsBatch := []
  rhsBatch := []
  wf := dot_S42852x128_S128x128_S42852x128_1_0_0_1_n_n_wf
def scatter_S42852_S500000x1_S500000_n_0_0_1 : ScatterDims S42852 S500000x1 S500000 where
  updateWindowDims := []
  insertedWindowDims := [0]
  scatterDimsToOperandDims := [0]
  indexVectorDim := 1
  wf := scatter_S42852_S500000x1_S500000_n_0_0_1_wf
def gather_S42852_S500000x1_S500000_n_0_n_n_0_1_1 : GatherDims S42852 S500000x1 S500000 where
  offsetDims := []
  collapsedSliceDims := [0]
  operandBatchingDims := []
  startIndicesBatchingDims := []
  startIndexMap := [0]
  indexVectorDim := 1
  sliceSizes := ![1]
  wf := gather_S42852_S500000x1_S500000_n_0_n_n_0_1_1_wf
def gather_S42852x128_S500000x1_S500000x128_1_0_n_n_0_1_1128 : GatherDims S42852x128 S500000x1 S500000x128 where
  offsetDims := [1]
  collapsedSliceDims := [0]
  operandBatchingDims := []
  startIndicesBatchingDims := []
  startIndexMap := [0]
  indexVectorDim := 1
  sliceSizes := ![1, 128]
  wf := gather_S42852x128_S500000x1_S500000x128_1_0_n_n_0_1_1128_wf
def scatter_S42852x128_S500000x1_S500000x128_1_0_0_1 : ScatterDims S42852x128 S500000x1 S500000x128 where
  updateWindowDims := [1]
  insertedWindowDims := [0]
  scatterDimsToOperandDims := [0]
  indexVectorDim := 1
  wf := scatter_S42852x128_S500000x1_S500000x128_1_0_0_1_wf
def gather_S42852x128_S600000x1_S600000x128_1_0_n_n_0_1_1128 : GatherDims S42852x128 S600000x1 S600000x128 where
  offsetDims := [1]
  collapsedSliceDims := [0]
  operandBatchingDims := []
  startIndicesBatchingDims := []
  startIndexMap := [0]
  indexVectorDim := 1
  sliceSizes := ![1, 128]
  wf := gather_S42852x128_S600000x1_S600000x128_1_0_n_n_0_1_1128_wf
def scatter_S27094x128_S600000x1_S600000x128_1_0_0_1 : ScatterDims S27094x128 S600000x1 S600000x128 where
  updateWindowDims := [1]
  insertedWindowDims := [0]
  scatterDimsToOperandDims := [0]
  indexVectorDim := 1
  wf := scatter_S27094x128_S600000x1_S600000x128_1_0_0_1_wf
def gather_S27094x128_S600000x1_S600000x128_1_0_n_n_0_1_1128 : GatherDims S27094x128 S600000x1 S600000x128 where
  offsetDims := [1]
  collapsedSliceDims := [0]
  operandBatchingDims := []
  startIndicesBatchingDims := []
  startIndexMap := [0]
  indexVectorDim := 1
  sliceSizes := ![1, 128]
  wf := gather_S27094x128_S600000x1_S600000x128_1_0_n_n_0_1_1128_wf
def scatter_S42852x128_S600000x1_S600000x128_1_0_0_1 : ScatterDims S42852x128 S600000x1 S600000x128 where
  updateWindowDims := [1]
  insertedWindowDims := [0]
  scatterDimsToOperandDims := [0]
  indexVectorDim := 1
  wf := scatter_S42852x128_S600000x1_S600000x128_1_0_0_1_wf

class Facts : Prop extends Facts₀ where

variable [Facts]
-- ==== Proof.WholeRun.lean ====
/-
  The idealized kernel program's run with every buffer named.

  @main is thirteen stretches of host operations around three regions. The buffers' contents at the end of each segment
  are a fold from the launch memory (the generated `Gen.W0 … Gen.W16`: a stretch applies its operations, a region replaces
  its arrays by what its write-backs leave). Every weakly fair execution terminates, and in every final state each
  unscoped buffer of each core holds the last boundary's contents `Gen.W16` — the results included, which the frame claim
  does not mention.
-/
import proofs.«147411_j59854664237657_1_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and every
    final state holds, on each core, every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

end Cert.KernelIdeal.WholeRun

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.PaddedProduct.lean ====
/-
  Rows of a product whose left operand was extended downwards.

  Let `x` be a 42852×128 array, `w` a 128×128 array, and `X` the 43008×128 array whose first 42852 rows are the rows of
  `x` and whose last 156 rows hold some padding value. On the extended reals the product `X · w` has at entry `(r, j)`
  the sum `∑ k, X (r, k) * w (k, j)`, and for `r < 42852` row `r` of `X` is row `r` of `x`: the first 42852 rows of
  `X · w` are `x · w`, the same sums term by term. Nothing is asked of the entries (no law of the extended reals beyond
  reading both sums is used), and the padding value plays no part.

  `whole X w` names the product of the extended array; `rows_of_padded` is the statement above for the operations as a
  program spells them (a `pad` by 156 rows at the high end of axis 0, a slice of the first 42852 rows).
-/
import proofs.«147411_j59854664237657_1_alg».proof.Proof.LibPlainDot
import Idealize.ShloMosaic.Lib.KernelVsHost
import Idealize.ShloMosaic.Lib.Pipeline.Value
import Idealize.ShloMosaic.Lib.ValueIdx

noncomputable section

open scoped BigOperators

namespace Cert.PaddedProduct

open Idealize.ShloMosaic Idealize.ShloMosaic.ValueIdx

/-- The product of the 43008-row array with the 128×128 array, as the host's plain product on the extended reals. -/
def whole (X : FVec Ideal ⟨2, ![43008, 128]⟩ .f32) (W : FVec Ideal ⟨2, ![128, 128]⟩ .f32) : FVec Ideal ⟨2, ![43008, 128]⟩ .f32 :=
  FloatOps.dotGeneral (DotDims.plain 43008 128 128) none .single X W

/-- Entry `(r, j)` of `whole X W` is `∑ k, X (r, k) * W (k, j)`. -/
theorem whole_apply (X : FVec Ideal ⟨2, ![43008, 128]⟩ .f32) (W : FVec Ideal ⟨2, ![128, 128]⟩ .f32) (r : Fin 43008) (j : Fin 128) :
    whole X W (ix2 r j) = ∑ k : Fin 128, X (ix2 r k) * W (ix2 k j) := by
  unfold whole
  exact Cert.Lib.PlainDot.dotGeneral_apply none .single X W r j

/-- The first 42852 rows of the product of `x` extended by 156 rows are the product `x · w`. -/
theorem rows_of_padded (x : FVec Ideal ⟨2, ![42852, 128]⟩ .f32) (w : FVec Ideal ⟨2, ![128, 128]⟩ .f32) {u : Shape} (v : u.Idx → Ideal .f32)
    (hp : (⟨2, ![42852, 128]⟩ : Shape).Pads ![0, 0] ![156, 0] ![0, 0] ⟨2, ![43008, 128]⟩) (hu : 0 < u.numel)
    (hs : (⟨2, ![43008, 128]⟩ : Shape).Slices ![0, 0] ⟨2, ![42852, 128]⟩) :
    extractStridedSlice ⟨2, ![42852, 128]⟩ ![0, 0] (whole (pad ⟨2, ![43008, 128]⟩ ![0, 0] ![156, 0] ![0, 0] x v hp hu) w) hs
      = FloatOps.dotGeneral (DotDims.plain 42852 128 128) none .single x w := by
  funext j
  obtain ⟨r, q, rfl⟩ : ∃ (r : Fin 42852) (q : Fin 128), j = ix2 r q := ⟨j 0, j 1, eq_ix2 j⟩
  have hr : r.val < 43008 := by have := r.isLt; omega
  rw [extractStridedSlice_apply ![0, 0] _ hs (ix2 r q) (ix2 (⟨r.val, hr⟩ : Fin 43008) q) (fun a => by
    match a with
    | ⟨0, _⟩ => show r.val = 0 + r.val; omega
    | ⟨1, _⟩ => show q.val = 0 + q.val; omega)]
  rw [whole_apply, Cert.Lib.PlainDot.dotGeneral_apply]
  refine Finset.sum_congr rfl fun k _ => ?_
  rw [pad_apply_of_inside ![0, 0] ![156, 0] ![0, 0] x v hp hu (ix2 (⟨r.val, hr⟩ : Fin 43008) k) (ix2 r k) (fun a => by
    match a with
    | ⟨0, _⟩ => show r.val = 0 + r.val * (0 + 1); omega
    | ⟨1, _⟩ => show k.val = 0 + k.val * (0 + 1); omega)]

end Cert.PaddedProduct

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«147411_j59854664237657_1_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.RowBlocks0.lean ====
/-
  What region 0 of the program leaves in its output array.

  The region multiplies a 43008×128 array `X` by a 128×128 array `W`, 1024 rows at a grid point: point `t` of the 42
  loads rows `1024·t … 1024·t + 1023` of `X` and the whole of `W`, multiplies them on the vector unit from the zero
  accumulator (both operands through a change of float format, which is the identity on the extended reals), and writes
  the 1024×128 result back as rows `1024·t …` of the output. Entry `(p, q)` of that block product is
  `∑ k, X (1024·t + p, k) * W (k, q)`, which is entry `(1024·t + p, q)` of the one product `X · W`; the 42 blocks tile the
  43008 rows; so the output array ends as `X · W` (`Cert.PaddedProduct.whole`), whatever the arrays hold.
  Stated at any contents `V` of the buffers at the region's entry.
-/
import proofs.«147411_j59854664237657_1_alg».proof.Proof.Gen.KernelIdeal.Frame
import proofs.«147411_j59854664237657_1_alg».proof.Proof.PaddedProduct
import proofs.«147411_j59854664237657_1_alg».proof.Proof.LibRowBlock
import Idealize.ShloMosaic.Lib.Pipeline.Value
import Idealize.ShloMosaic.Lib.ValueIdx

set_option maxRecDepth 16384

noncomputable section

namespace Cert.KernelIdeal.RowBlocks0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of the body's block product is entry `(P, q)` of the whole product, when row `p` of the loaded block is
    row `P` of `X` and the loaded weight is `W` on column `q`. -/
theorem payload_entry (x0 : Vec Ideal S1024x128 .f32) (x1 : Vec Ideal S128x128 .f32)
    (X : FVec Ideal S43008x128 .f32) (W : FVec Ideal S128x128 .f32) (P : Fin 43008) (p : Fin 1024) (q : Fin 128)
    (hx : ∀ k : Fin 128, x0 (ix2 p k) = X (ix2 P k)) (hw : ∀ k : Fin 128, x1 (ix2 k q) = W (ix2 k q)) :
    k0_pay1 x0 x1 (ix2 p q) = Cert.PaddedProduct.whole X W (ix2 P q) := by
  unfold k0_pay1 Cert.PaddedProduct.whole
  exact Cert.Lib.RowBlock.matmul_eq_dotGeneral none none .single X W _ _ P p q
    (fun k => (congrFun (shapeCast_self x0 _) (ix2 p k)).trans (hx k)) (fun k => hw k)

/-- The printed index maps over the 42 grid points: the row windows sit at block `t` of axis 0, the weight at the origin. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays as the region finds them. -/
theorem flushed_eq (c : Dev nD) (t : Fin cfg0.N) :
    (dat0 V c).flushed 2 t = ((cfg0.win 2).blk t).view.read (Elt Ideal)
      (Cert.PaddedProduct.whole (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S1024x128) zero_offsets, View.ld_unit_zero (S := S128x128) zero_offsets]
  obtain ⟨e0, e1, e2, e3, e4, e5⟩ := index_facts t
  have ht : t.val < 42 := t.isLt
  funext j
  obtain ⟨p, q, rfl⟩ : ∃ (p : Fin 1024) (q : Fin 128), j = ix2 p q := ⟨j 0, j 1, eq_ix2 j⟩
  have hP : t.val * 1024 + p.val < 43008 := by have := p.isLt; omega
  have hemb : ((cfg0.win 2).blk t).view.emb (ix2 p q) = ix2 (⟨t.val * 1024 + p.val, hP⟩ : Fin 43008) q := by
    funext a; apply Fin.ext
    match a with
    | ⟨0, _⟩ => show win0_2.index t (0 : Fin 2) * 1024 + 1 * p.val = t.val * 1024 + p.val; omega
    | ⟨1, _⟩ => show win0_2.index t (1 : Fin 2) * 128 + 1 * q.val = q.val; omega
  show k0_pay1 (iblk0 V c 0 t) (iblk0 V c 1 t) (ix2 p q)
    = Cert.PaddedProduct.whole (V c (Pipeline.arrRef spec0 0)) (V c (Pipeline.arrRef spec0 1)) (((cfg0.win 2).blk t).view.emb (ix2 p q))
  rw [hemb]
  refine payload_entry (iblk0 V c 0 t) (iblk0 V c 1 t) (V c (Pipeline.arrRef spec0 0)) (V c (Pipeline.arrRef spec0 1))
    (⟨t.val * 1024 + p.val, hP⟩ : Fin 43008) p q (fun k => ?_) (fun k => ?_)
  · show V c (Pipeline.arrRef spec0 0) (((cfg0.win 0).blk t).view.emb (ix2 p k))
      = V c (Pipeline.arrRef spec0 0) (ix2 (⟨t.val * 1024 + p.val, hP⟩ : Fin 43008) k)
    refine congrArg _ (funext fun a => Fin.ext ?_)
    match a with
    | ⟨0, _⟩ => show win0_0.index t (0 : Fin 2) * 1024 + 1 * p.val = t.val * 1024 + p.val; omega
    | ⟨1, _⟩ => show win0_0.index t (1 : Fin 2) * 128 + 1 * k.val = k.val; omega
  · show V c (Pipeline.arrRef spec0 1) (((cfg0.win 1).blk t).view.emb (ix2 k q)) = V c (Pipeline.arrRef spec0 1) (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega

/-- An index of the output array is in point `t`'s block iff each coordinate is in the block's range on its axis. -/
theorem mem_blk (t : Fin cfg0.N) (i : S43008x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v31).slice (win0_2.rect t)).set ↔ _
  rw [View.set_slice_whole, Rect.mem_set_unit]
  exact Iff.rfl

/-- Row `r` of the output lies in the block of point `r / 1024`: the 42 blocks tile the 43008 rows. -/
theorem cover (i : S43008x128.Idx) : ∃ t : Fin cfg0.N, (cfg0.win 2).flush t = true ∧ i ∈ ((cfg0.win 2).blk t).view.set := by
  have hi0 : (i 0).val < 43008 := (i 0).isLt
  have hi1 : (i 1).val < 128 := (i 1).isLt
  have hlt : (i 0).val / 1024 < cfg0.N := by show (i 0).val / 1024 < 42; omega
  refine ⟨(⟨(i 0).val / 1024, hlt⟩ : Fin cfg0.N), flush0_2 _, ?_⟩
  rw [mem_blk]
  obtain ⟨e0, e1, e2, e3, e4, e5⟩ := index_facts (⟨(i 0).val / 1024, hlt⟩ : Fin cfg0.N)
  have e4' : win0_2.index (⟨(i 0).val / 1024, hlt⟩ : Fin cfg0.N) (0 : Fin 2) = (i 0).val / 1024 := e4
  intro a
  match a with
  | ⟨0, _⟩ =>
    show win0_2.index (⟨(i 0).val / 1024, hlt⟩ : Fin cfg0.N) (0 : Fin 2) * 1024 ≤ (i 0).val
      ∧ (i 0).val < win0_2.index (⟨(i 0).val / 1024, hlt⟩ : Fin cfg0.N) (0 : Fin 2) * 1024 + 1024
    omega
  | ⟨1, _⟩ =>
    show win0_2.index (⟨(i 0).val / 1024, hlt⟩ : Fin cfg0.N) (1 : Fin 2) * 128 ≤ (i 1).val
      ∧ (i 1).val < win0_2.index (⟨(i 0).val / 1024, hlt⟩ : Fin cfg0.N) (1 : Fin 2) * 128 + 128
    omega

/-- The output array after the region is the whole product of the two input arrays as the region finds them. -/
theorem array_eq (c : Dev nD) :
    (dat0 V c).arrAt 2 cfg0.N
      = Cert.PaddedProduct.whole (V c (Pipeline.arrRef spec0 0)) (V c (Pipeline.arrRef spec0 1)) :=
  (dat0 V c).arrAt_eq_of_cover 2 _ (fun t _ => flushed_eq V c t) cover

end Cert.KernelIdeal.RowBlocks0

end
-- ==== Proof.RowBlocks1.lean ====
/-
  What region 1 of the program leaves in its output array.

  The region multiplies a 43008×128 array `X` by a 128×128 array `W`, 1024 rows at a grid point: point `t` of the 42
  loads rows `1024·t … 1024·t + 1023` of `X` and the whole of `W`, multiplies them on the vector unit from the zero
  accumulator (both operands through a change of float format, which is the identity on the extended reals), and writes
  the 1024×128 result back as rows `1024·t …` of the output. Entry `(p, q)` of that block product is
  `∑ k, X (1024·t + p, k) * W (k, q)`, which is entry `(1024·t + p, q)` of the one product `X · W`; the 42 blocks tile the
  43008 rows; so the output array ends as `X · W` (`Cert.PaddedProduct.whole`), whatever the arrays hold.
  Stated at any contents `V` of the buffers at the region's entry.
-/
import proofs.«147411_j59854664237657_1_alg».proof.Proof.Gen.KernelIdeal.Frame
import proofs.«147411_j59854664237657_1_alg».proof.Proof.PaddedProduct
import proofs.«147411_j59854664237657_1_alg».proof.Proof.LibRowBlock
import Idealize.ShloMosaic.Lib.Pipeline.Value
import Idealize.ShloMosaic.Lib.ValueIdx

set_option maxRecDepth 16384

noncomputable section

namespace Cert.KernelIdeal.RowBlocks1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of the body's block product is entry `(P, q)` of the whole product, when row `p` of the loaded block is
    row `P` of `X` and the loaded weight is `W` on column `q`. -/
theorem payload_entry (x0 : Vec Ideal S1024x128 .f32) (x1 : Vec Ideal S128x128 .f32)
    (X : FVec Ideal S43008x128 .f32) (W : FVec Ideal S128x128 .f32) (P : Fin 43008) (p : Fin 1024) (q : Fin 128)
    (hx : ∀ k : Fin 128, x0 (ix2 p k) = X (ix2 P k)) (hw : ∀ k : Fin 128, x1 (ix2 k q) = W (ix2 k q)) :
    k1_pay1 x0 x1 (ix2 p q) = Cert.PaddedProduct.whole X W (ix2 P q) := by
  unfold k1_pay1 Cert.PaddedProduct.whole
  exact Cert.Lib.RowBlock.matmul_eq_dotGeneral none none .single X W _ _ P p q
    (fun k => (congrFun (shapeCast_self x0 _) (ix2 p k)).trans (hx k)) (fun k => hw k)

/-- The printed index maps over the 42 grid points: the row windows sit at block `t` of axis 0, the weight at the origin. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the arrays as the region finds them. -/
theorem flushed_eq (c : Dev nD) (t : Fin cfg1.N) :
    (dat1 V c).flushed 2 t = ((cfg1.win 2).blk t).view.read (Elt Ideal)
      (Cert.PaddedProduct.whole (V c (Pipeline.arrRef spec1 0)) (V c (Pipeline.arrRef spec1 1))) := by
  show (cfg1.win 2).cut (grid1.coords t) ((dat1 V c).after 2 t) = _
  rw [after1_2]
  unfold out1_2
  rw [View.canon_unit_zero zero_offsets]
  simp only [View.ld_unit_zero (S := S1024x128) zero_offsets, View.ld_unit_zero (S := S128x128) zero_offsets]
  obtain ⟨e0, e1, e2, e3, e4, e5⟩ := index_facts t
  have ht : t.val < 42 := t.isLt
  funext j
  obtain ⟨p, q, rfl⟩ : ∃ (p : Fin 1024) (q : Fin 128), j = ix2 p q := ⟨j 0, j 1, eq_ix2 j⟩
  have hP : t.val * 1024 + p.val < 43008 := by have := p.isLt; omega
  have hemb : ((cfg1.win 2).blk t).view.emb (ix2 p q) = ix2 (⟨t.val * 1024 + p.val, hP⟩ : Fin 43008) q := by
    funext a; apply Fin.ext
    match a with
    | ⟨0, _⟩ => show win1_2.index t (0 : Fin 2) * 1024 + 1 * p.val = t.val * 1024 + p.val; omega
    | ⟨1, _⟩ => show win1_2.index t (1 : Fin 2) * 128 + 1 * q.val = q.val; omega
  show k1_pay1 (iblk1 V c 0 t) (iblk1 V c 1 t) (ix2 p q)
    = Cert.PaddedProduct.whole (V c (Pipeline.arrRef spec1 0)) (V c (Pipeline.arrRef spec1 1)) (((cfg1.win 2).blk t).view.emb (ix2 p q))
  rw [hemb]
  refine payload_entry (iblk1 V c 0 t) (iblk1 V c 1 t) (V c (Pipeline.arrRef spec1 0)) (V c (Pipeline.arrRef spec1 1))
    (⟨t.val * 1024 + p.val, hP⟩ : Fin 43008) p q (fun k => ?_) (fun k => ?_)
  · show V c (Pipeline.arrRef spec1 0) (((cfg1.win 0).blk t).view.emb (ix2 p k))
      = V c (Pipeline.arrRef spec1 0) (ix2 (⟨t.val * 1024 + p.val, hP⟩ : Fin 43008) k)
    refine congrArg _ (funext fun a => Fin.ext ?_)
    match a with
    | ⟨0, _⟩ => show win1_0.index t (0 : Fin 2) * 1024 + 1 * p.val = t.val * 1024 + p.val; omega
    | ⟨1, _⟩ => show win1_0.index t (1 : Fin 2) * 128 + 1 * k.val = k.val; omega
  · show V c (Pipeline.arrRef spec1 1) (((cfg1.win 1).blk t).view.emb (ix2 k q)) = V c (Pipeline.arrRef spec1 1) (ix2 k q)
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * q.val = q.val; omega

/-- An index of the output array is in point `t`'s block iff each coordinate is in the block's range on its axis. -/
theorem mem_blk (t : Fin cfg1.N) (i : S43008x128.Idx) :
    i ∈ ((cfg1.win 2).blk t).view.set ↔ ∀ a : Fin 2, win1_2.index t a * S1024x128.size a ≤ (i a).val
      ∧ (i a).val < win1_2.index t a * S1024x128.size a + S1024x128.size a := by
  show i ∈ ((View.whole main_v247).slice (win1_2.rect t)).set ↔ _
  rw [View.set_slice_whole, Rect.mem_set_unit]
  exact Iff.rfl

/-- Row `r` of the output lies in the block of point `r / 1024`: the 42 blocks tile the 43008 rows. -/
theorem cover (i : S43008x128.Idx) : ∃ t : Fin cfg1.N, (cfg1.win 2).flush t = true ∧ i ∈ ((cfg1.win 2).blk t).view.set := by
  have hi0 : (i 0).val < 43008 := (i 0).isLt
  have hi1 : (i 1).val < 128 := (i 1).isLt
  have hlt : (i 0).val / 1024 < cfg1.N := by show (i 0).val / 1024 < 42; omega
  refine ⟨(⟨(i 0).val / 1024, hlt⟩ : Fin cfg1.N), flush1_2 _, ?_⟩
  rw [mem_blk]
  obtain ⟨e0, e1, e2, e3, e4, e5⟩ := index_facts (⟨(i 0).val / 1024, hlt⟩ : Fin cfg1.N)
  have e4' : win1_2.index (⟨(i 0).val / 1024, hlt⟩ : Fin cfg1.N) (0 : Fin 2) = (i 0).val / 1024 := e4
  intro a
  match a with
  | ⟨0, _⟩ =>
    show win1_2.index (⟨(i 0).val / 1024, hlt⟩ : Fin cfg1.N) (0 : Fin 2) * 1024 ≤ (i 0).val
      ∧ (i 0).val < win1_2.index (⟨(i 0).val / 1024, hlt⟩ : Fin cfg1.N) (0 : Fin 2) * 1024 + 1024
    omega
  | ⟨1, _⟩ =>
    show win1_2.index (⟨(i 0).val / 1024, hlt⟩ : Fin cfg1.N) (1 : Fin 2) * 128 ≤ (i 1).val
      ∧ (i 1).val < win1_2.index (⟨(i 0).val / 1024, hlt⟩ : Fin cfg1.N) (1 : Fin 2) * 128 + 128
    omega

/-- The output array after the region is the whole product of the two input arrays as the region finds them. -/
theorem array_eq (c : Dev nD) :
    (dat1 V c).arrAt 2 cfg1.N
      = Cert.PaddedProduct.whole (V c (Pipeline.arrRef spec1 0)) (V c (Pipeline.arrRef spec1 1)) :=
  (dat1 V c).arrAt_eq_of_cover 2 _ (fun t _ => flushed_eq V c t) cover

end Cert.KernelIdeal.RowBlocks1

end
-- ==== Proof.RowBlocks2.lean ====
/-
  What region 2 of the program leaves in its output array.

  The region multiplies a 43008×128 array `X` by a 128×128 array `W`, 1024 rows at a grid point: point `t` of the 42
  loads rows `1024·t … 1024·t + 1023` of `X` and the whole of `W`, multiplies them on the vector unit from the zero
  accumulator (both operands through a change of float format, which is the identity on the extended reals), and writes
  the 1024×128 result back as rows `1024·t …` of the output. Entry `(p, q)` of that block product is
  `∑ k, X (1024·t + p, k) * W (k, q)`, which is entry `(1024·t + p, q)` of the one product `X · W`; the 42 blocks tile the
  43008 rows; so the output array ends as `X · W` (`Cert.PaddedProduct.whole`), whatever the arrays hold.
  Stated at any contents `V` of the buffers at the region's entry.
-/
import proofs.«147411_j59854664237657_1_alg».proof.Proof.Gen.KernelIdeal.Frame
import proofs.«147411_j59854664237657_1_alg».proof.Proof.PaddedProduct
import proofs.«147411_j59854664237657_1_alg».proof.Proof.LibRowBlock
import Idealize.ShloMosaic.Lib.Pipeline.Value
import Idealize.ShloMosaic.Lib.ValueIdx

set_option maxRecDepth 16384

noncomputable section

namespace Cert.KernelIdeal.RowBlocks2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of the body's block product is entry `(P, q)` of the whole product, when row `p` of the loaded block is
    row `P` of `X` and the loaded weight is `W` on column `q`. -/
theorem payload_entry (x0 : Vec Ideal S1024x128 .f32) (x1 : Vec Ideal S128x128 .f32)
    (X : FVec Ideal S43008x128 .f32) (W : FVec Ideal S128x128 .f32) (P : Fin 43008) (p : Fin 1024) (q : Fin 128)
    (hx : ∀ k : Fin 128, x0 (ix2 p k) = X (ix2 P k)) (hw : ∀ k : Fin 128, x1 (ix2 k q) = W (ix2 k q)) :
    k2_pay1 x0 x1 (ix2 p q) = Cert.PaddedProduct.whole X W (ix2 P q) := by
  unfold k2_pay1 Cert.PaddedProduct.whole
  exact Cert.Lib.RowBlock.matmul_eq_dotGeneral none none .single X W _ _ P p q
    (fun k => (congrFun (shapeCast_self x0 _) (ix2 p k)).trans (hx k)) (fun k => hw k)

/-- The printed index maps over the 42 grid points: the row windows sit at block `t` of axis 0, the weight at the origin. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product of the arrays as the region finds them. -/
theorem flushed_eq (c : Dev nD) (t : Fin cfg2.N) :
    (dat2 V c).flushed 2 t = ((cfg2.win 2).blk t).view.read (Elt Ideal)
      (Cert.PaddedProduct.whole (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S1024x128) zero_offsets, View.ld_unit_zero (S := S128x128) zero_offsets]
  obtain ⟨e0, e1, e2, e3, e4, e5⟩ := index_facts t
  have ht : t.val < 42 := t.isLt
  funext j
  obtain ⟨p, q, rfl⟩ : ∃ (p : Fin 1024) (q : Fin 128), j = ix2 p q := ⟨j 0, j 1, eq_ix2 j⟩
  have hP : t.val * 1024 + p.val < 43008 := by have := p.isLt; omega
  have hemb : ((cfg2.win 2).blk t).view.emb (ix2 p q) = ix2 (⟨t.val * 1024 + p.val, hP⟩ : Fin 43008) q := by
    funext a; apply Fin.ext
    match a with
    | ⟨0, _⟩ => show win2_2.index t (0 : Fin 2) * 1024 + 1 * p.val = t.val * 1024 + p.val; omega
    | ⟨1, _⟩ => show win2_2.index t (1 : Fin 2) * 128 + 1 * q.val = q.val; omega
  show k2_pay1 (iblk2 V c 0 t) (iblk2 V c 1 t) (ix2 p q)
    = Cert.PaddedProduct.whole (V c (Pipeline.arrRef spec2 0)) (V c (Pipeline.arrRef spec2 1)) (((cfg2.win 2).blk t).view.emb (ix2 p q))
  rw [hemb]
  refine payload_entry (iblk2 V c 0 t) (iblk2 V c 1 t) (V c (Pipeline.arrRef spec2 0)) (V c (Pipeline.arrRef spec2 1))
    (⟨t.val * 1024 + p.val, hP⟩ : Fin 43008) p q (fun k => ?_) (fun k => ?_)
  · show V c (Pipeline.arrRef spec2 0) (((cfg2.win 0).blk t).view.emb (ix2 p k))
      = V c (Pipeline.arrRef spec2 0) (ix2 (⟨t.val * 1024 + p.val, hP⟩ : Fin 43008) k)
    refine congrArg _ (funext fun a => Fin.ext ?_)
    match a with
    | ⟨0, _⟩ => show win2_0.index t (0 : Fin 2) * 1024 + 1 * p.val = t.val * 1024 + p.val; omega
    | ⟨1, _⟩ => show win2_0.index t (1 : Fin 2) * 128 + 1 * k.val = k.val; omega
  · show V c (Pipeline.arrRef spec2 1) (((cfg2.win 1).blk t).view.emb (ix2 k q)) = V c (Pipeline.arrRef spec2 1) (ix2 k q)
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega

/-- An index of the output array is in point `t`'s block iff each coordinate is in the block's range on its axis. -/
theorem mem_blk (t : Fin cfg2.N) (i : S43008x128.Idx) :
    i ∈ ((cfg2.win 2).blk t).view.set ↔ ∀ a : Fin 2, win2_2.index t a * S1024x128.size a ≤ (i a).val
      ∧ (i a).val < win2_2.index t a * S1024x128.size a + S1024x128.size a := by
  show i ∈ ((View.whole main_v301).slice (win2_2.rect t)).set ↔ _
  rw [View.set_slice_whole, Rect.mem_set_unit]
  exact Iff.rfl

/-- Row `r` of the output lies in the block of point `r / 1024`: the 42 blocks tile the 43008 rows. -/
theorem cover (i : S43008x128.Idx) : ∃ t : Fin cfg2.N, (cfg2.win 2).flush t = true ∧ i ∈ ((cfg2.win 2).blk t).view.set := by
  have hi0 : (i 0).val < 43008 := (i 0).isLt
  have hi1 : (i 1).val < 128 := (i 1).isLt
  have hlt : (i 0).val / 1024 < cfg2.N := by show (i 0).val / 1024 < 42; omega
  refine ⟨(⟨(i 0).val / 1024, hlt⟩ : Fin cfg2.N), flush2_2 _, ?_⟩
  rw [mem_blk]
  obtain ⟨e0, e1, e2, e3, e4, e5⟩ := index_facts (⟨(i 0).val / 1024, hlt⟩ : Fin cfg2.N)
  have e4' : win2_2.index (⟨(i 0).val / 1024, hlt⟩ : Fin cfg2.N) (0 : Fin 2) = (i 0).val / 1024 := e4
  intro a
  match a with
  | ⟨0, _⟩ =>
    show win2_2.index (⟨(i 0).val / 1024, hlt⟩ : Fin cfg2.N) (0 : Fin 2) * 1024 ≤ (i 0).val
      ∧ (i 0).val < win2_2.index (⟨(i 0).val / 1024, hlt⟩ : Fin cfg2.N) (0 : Fin 2) * 1024 + 1024
    omega
  | ⟨1, _⟩ =>
    show win2_2.index (⟨(i 0).val / 1024, hlt⟩ : Fin cfg2.N) (1 : Fin 2) * 128 ≤ (i 1).val
      ∧ (i 1).val < win2_2.index (⟨(i 0).val / 1024, hlt⟩ : Fin cfg2.N) (1 : Fin 2) * 128 + 128
    omega

/-- The output array after the region is the whole product of the two input arrays as the region finds them. -/
theorem array_eq (c : Dev nD) :
    (dat2 V c).arrAt 2 cfg2.N
      = Cert.PaddedProduct.whole (V c (Pipeline.arrRef spec2 0)) (V c (Pipeline.arrRef spec2 1)) :=
  (dat2 V c).arrAt_eq_of_cover 2 _ (fun t _ => flushed_eq V c t) cover

end Cert.KernelIdeal.RowBlocks2

end
-- ==== Proof.Boundaries.lean ====
/-
  The three regions of the program, each read as one host product.

  Each region is entered right after two host operations that extend a 42852×128 array `x` by 156 rows (a conversion of an
  integer zero to the padding value, then the `pad`), and is followed by the slice of the first 42852 rows of its output.
  When the region ends, its output array holds the whole product of the extended array with the 128×128 weight
  (`RowBlocks0/1/2.array_eq`), every buffer that is none of its three arrays holds what it held at the region's entry, and
  so the slice is the plain product `x · w` (`Cert.PaddedProduct.rows_of_padded`). Stated on the generated fold of boundary
  contents: region 0 is entered at `Gen.W2` (the pad stretch starts at `Gen.W1`) and left at `Gen.W3`; region 1 at
  `Gen.W7` (from `Gen.W6`) and `Gen.W8`; region 2 at `Gen.W12` (from `Gen.W11`) and `Gen.W13`.
-/
import proofs.«147411_j59854664237657_1_alg».proof.Proof.RowBlocks0
import proofs.«147411_j59854664237657_1_alg».proof.Proof.RowBlocks1
import proofs.«147411_j59854664237657_1_alg».proof.Proof.RowBlocks2
import Idealize.ShloMosaic.Lib.StableHlo.Run

set_option maxRecDepth 16384

noncomputable section

namespace Cert.KernelIdeal.Boundaries

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- After region 0 its output array is the product of the extended first operand with the weight (`RowBlocks0.array_eq` at the
    region's entry contents). -/
theorem W3_out (c : Dev nD) :
    W3 m ρ c (Proc.devRef .tc main_v31)
      = Cert.PaddedProduct.whole (W2 m ρ c (Proc.devRef .tc main_v30)) (W2 m ρ c (Proc.devRef .tc main_arg2)) :=
  (W3_arr m ρ c 2).trans (Cert.KernelIdeal.RowBlocks0.array_eq (V2 m ρ) c)

/-- Region 0 leaves every buffer that is none of its three arrays as it found it. -/
theorem W3_other (c : Dev nD) {b : Ref sig .tc} (hb : ∀ w, Pipeline.arrRef spec0 w ≠ b) :
    W3 m ρ c (no_index (Proc.devRef .tc b)) = W2 m ρ c (Proc.devRef .tc b) :=
  W3_of_ne m ρ c b hb

set_option maxHeartbeats 4000000 in
/-- The first product: the first 42852 rows of region 0's output are the host's plain product of the array the two
    operations before the region extend by 156 rows (whatever value fills them) with the weight. -/
theorem product0 (c : Dev nD) :
    no_index (extractStridedSlice (s := S43008x128) (α := Elt Ideal EltTy.f32) S42852x128 ![0, 0] (W3 m ρ c (Proc.devRef .tc main_v31)) slices_S43008x128_S42852x128_0_0)
      = FloatOps.dotGeneral (F := Ideal) (φ₁ := .f32) (φ₂ := .f32) (DotDims.plain 42852 128 128) none .single
          (W1 m ρ c (Proc.devRef .tc main_arg0)) (W1 m ρ c (Proc.devRef .tc main_arg2)) := by
  have e1 : W2 m ρ c (Proc.devRef .tc main_v30)
      = pad S43008x128 ![0, 0] ![156, 0] ![0, 0] (W1 m ρ c (Proc.devRef .tc main_arg0))
          (sitofp .f32 (W1 m ρ c (Proc.devRef .tc main_c_6)) : FVec Ideal S_ .f32) pads_S42852x128_S43008x128_01560_000 h_S_ := by
    dsimp only [W2]
    after_results_simp <;> rfl
  have e2 : W2 m ρ c (Proc.devRef .tc main_arg2) = W1 m ρ c (Proc.devRef .tc main_arg2) := by
    dsimp only [W2]
    after_results_simp <;> rfl
  show extractStridedSlice (s := S43008x128) (α := Elt Ideal EltTy.f32) S42852x128 ![0, 0] (W3 m ρ c (Proc.devRef .tc main_v31)) slices_S43008x128_S42852x128_0_0 = _
  rw [W3_out, e1, e2]
  exact Cert.PaddedProduct.rows_of_padded _ _ _ _ _ _

/-- After region 1 its output array is the product of the extended first operand with the weight (`RowBlocks1.array_eq` at the
    region's entry contents). -/
theorem W8_out (c : Dev nD) :
    W8 m ρ c (Proc.devRef .tc main_v247)
      = Cert.PaddedProduct.whole (W7 m ρ c (Proc.devRef .tc main_v246)) (W7 m ρ c (Proc.devRef .tc main_arg3)) :=
  (W8_arr m ρ c 2).trans (Cert.KernelIdeal.RowBlocks1.array_eq (V7 m ρ) c)

/-- Region 1 leaves every buffer that is none of its three arrays as it found it. -/
theorem W8_other (c : Dev nD) {b : Ref sig .tc} (hb : ∀ w, Pipeline.arrRef spec1 w ≠ b) :
    W8 m ρ c (no_index (Proc.devRef .tc b)) = W7 m ρ c (Proc.devRef .tc b) :=
  W8_of_ne m ρ c b hb

set_option maxHeartbeats 4000000 in
/-- The second product: the first 42852 rows of region 1's output are the host's plain product of the array the two
    operations before the region extend by 156 rows (whatever value fills them) with the weight. -/
theorem product1 (c : Dev nD) :
    no_index (extractStridedSlice (s := S43008x128) (α := Elt Ideal EltTy.f32) S42852x128 ![0, 0] (W8 m ρ c (Proc.devRef .tc main_v247)) slices_S43008x128_S42852x128_0_0)
      = FloatOps.dotGeneral (F := Ideal) (φ₁ := .f32) (φ₂ := .f32) (DotDims.plain 42852 128 128) none .single
          (W6 m ρ c (Proc.devRef .tc main_arg0)) (W6 m ρ c (Proc.devRef .tc main_arg3)) := by
  have e1 : W7 m ρ c (Proc.devRef .tc main_v246)
      = pad S43008x128 ![0, 0] ![156, 0] ![0, 0] (W6 m ρ c (Proc.devRef .tc main_arg0))
          (sitofp .f32 (W6 m ρ c (Proc.devRef .tc main_c_58)) : FVec Ideal S_ .f32) pads_S42852x128_S43008x128_01560_000 h_S_ := by
    dsimp only [W7]
    after_results_simp <;> rfl
  have e2 : W7 m ρ c (Proc.devRef .tc main_arg3) = W6 m ρ c (Proc.devRef .tc main_arg3) := by
    dsimp only [W7]
    after_results_simp <;> rfl
  show extractStridedSlice (s := S43008x128) (α := Elt Ideal EltTy.f32) S42852x128 ![0, 0] (W8 m ρ c (Proc.devRef .tc main_v247)) slices_S43008x128_S42852x128_0_0 = _
  rw [W8_out, e1, e2]
  exact Cert.PaddedProduct.rows_of_padded _ _ _ _ _ _

/-- After region 2 its output array is the product of the extended first operand with the weight (`RowBlocks2.array_eq` at the
    region's entry contents). -/
theorem W13_out (c : Dev nD) :
    W13 m ρ c (Proc.devRef .tc main_v301)
      = Cert.PaddedProduct.whole (W12 m ρ c (Proc.devRef .tc main_v300)) (W12 m ρ c (Proc.devRef .tc main_arg4)) :=
  (W13_arr m ρ c 2).trans (Cert.KernelIdeal.RowBlocks2.array_eq (V12 m ρ) c)

/-- Region 2 leaves every buffer that is none of its three arrays as it found it. -/
theorem W13_other (c : Dev nD) {b : Ref sig .tc} (hb : ∀ w, Pipeline.arrRef spec2 w ≠ b) :
    W13 m ρ c (no_index (Proc.devRef .tc b)) = W12 m ρ c (Proc.devRef .tc b) :=
  W13_of_ne m ρ c b hb

set_option maxHeartbeats 4000000 in
/-- The third product: the first 42852 rows of region 2's output are the host's plain product of the array the two
    operations before the region extend by 156 rows (whatever value fills them) with the weight. -/
theorem product2 (c : Dev nD) :
    no_index (extractStridedSlice (s := S43008x128) (α := Elt Ideal EltTy.f32) S42852x128 ![0, 0] (W13 m ρ c (Proc.devRef .tc main_v301)) slices_S43008x128_S42852x128_0_0)
      = FloatOps.dotGeneral (F := Ideal) (φ₁ := .f32) (φ₂ := .f32) (DotDims.plain 42852 128 128) none .single
          (W11 m ρ c (Proc.devRef .tc main_v239)) (W11 m ρ c (Proc.devRef .tc main_arg4)) := by
  have e1 : W12 m ρ c (Proc.devRef .tc main_v300)
      = pad S43008x128 ![0, 0] ![156, 0] ![0, 0] (W11 m ρ c (Proc.devRef .tc main_v239))
          (sitofp .f32 (W11 m ρ c (Proc.devRef .tc main_c_71)) : FVec Ideal S_ .f32) pads_S42852x128_S43008x128_01560_000 h_S_ := by
    dsimp only [W12]
    after_results_simp <;> rfl
  have e2 : W12 m ρ c (Proc.devRef .tc main_arg4) = W11 m ρ c (Proc.devRef .tc main_arg4) := by
    dsimp only [W12]
    after_results_simp <;> rfl
  show extractStridedSlice (s := S43008x128) (α := Elt Ideal EltTy.f32) S42852x128 ![0, 0] (W13 m ρ c (Proc.devRef .tc main_v301)) slices_S43008x128_S42852x128_0_0 = _
  rw [W13_out, e1, e2]
  exact Cert.PaddedProduct.rows_of_padded _ _ _ _ _ _

end Cert.KernelIdeal.Boundaries

end
-- ==== Proof.Result3.lean ====
/-
  Result 3 of the two programs is one array: the user embeddings of the second and third branches: the propagated mean of the raw embeddings (no product enters it).

  Both programs compute it by the same host operations in the same order — the same gathers, accumulating scatters,
  normalisations and sums, on the same literals — except where the reference multiplies a 42852×128 array by a 128×128
  weight in one host product and the kernel program extends the array by 156 rows, multiplies it block by block in a
  region and cuts the first 42852 rows. Reading the kernel program's last boundary contents back through its thirteen
  stretches of host operations and three regions, each of those three places is the reference's product
  (`Boundaries.product0/1/2`); what remains is the reference's own composed term of the argument arrays, on which the two
  memories agree.
-/
import proofs.«147411_j59854664237657_1_alg».proof.Proof.Boundaries
import proofs.«147411_j59854664237657_1_alg».proof.Proof.ReferenceRun

set_option maxRecDepth 16384

noncomputable section

namespace Cert.Results

open Idealize.ShloMosaic Idealize.ShloMosaic.TcCoe Idealize.SL.Sem Idealize.ShloMosaic.StableHlo
open Cert.KernelIdeal Cert.KernelIdeal.Gen

set_option maxHeartbeats 400000000 in
/-- The kernel program's last boundary contents at its result 3 are the reference's composed term for its result 3, when the
    two launch memories agree on the twelve arguments. -/
theorem result3 (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11)) :
    W16 m ρ c (Proc.devRef .tc main_v245) = Cert.ReferenceIdeal.ValueP.res_main_v243 m' c := by
  unfold Cert.ReferenceIdeal.ValueP.res_main_v243
  simp only [h0, h1, h2, h3, h4, h5, h6, h7, h8, h9, h10, h11]
  simp (disch := decide) only [W16, W15, W14, W12, W11, W10, W9, W7, W6, W5, W4, W2, W1,
    hostOps0, hostOps0_1, hostOps1, hostOps1_1, hostOps1_2, hostOps1_3, hostOps2, hostOps2_1, hostOps2_2, hostOps2_3, hostOps3, hostOps3_1, hostOps3_2,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Boundaries.W3_other, Cert.KernelIdeal.Boundaries.W8_other, Cert.KernelIdeal.Boundaries.W13_other,
    Cert.KernelIdeal.Boundaries.product0, Cert.KernelIdeal.Boundaries.product1, Cert.KernelIdeal.Boundaries.product2]
  rfl

end Cert.Results

end
-- ==== Proof.Result0.lean ====
/-
  Result 0 of the two programs is one array: the spot embeddings of the first branch: the mean over the four layers of the bipartite propagation started from `spot_emb` plus the first graph convolution of `spot_emb · W_spot`.

  Both programs compute it by the same host operations in the same order — the same gathers, accumulating scatters,
  normalisations and sums, on the same literals — except where the reference multiplies a 42852×128 array by a 128×128
  weight in one host product and the kernel program extends the array by 156 rows, multiplies it block by block in a
  region and cuts the first 42852 rows. Reading the kernel program's last boundary contents back through its thirteen
  stretches of host operations and three regions, each of those three places is the reference's product
  (`Boundaries.product0/1/2`); reading the reference's one line of operations back in the same way gives the same
  composed term of the argument arrays, on which the two memories agree; and that term is the one the reference's run is
  stated with.
-/
import proofs.«147411_j59854664237657_1_alg».proof.Proof.Boundaries
import proofs.«147411_j59854664237657_1_alg».proof.Proof.ReferenceRun
import proofs.«147411_j59854664237657_1_alg».proof.Proof.Result3

set_option maxRecDepth 16384

noncomputable section

namespace Cert.Results

open Idealize.ShloMosaic Idealize.ShloMosaic.TcCoe Idealize.SL.Sem Idealize.ShloMosaic.StableHlo

set_option maxRecDepth 65536 in
set_option maxHeartbeats 400000000 in
/-- The reference's line of operations, folded from the launch contents and read at its result 0, is the composed term its
    run is stated with, for any float values. -/
theorem reference_fold0 {F : FTy → Type} [FloatOps F]
    (m' : (ℓ : Loc Cert.ReferenceIdeal.nD Cert.ReferenceIdeal.τ Cert.ReferenceIdeal.sig) → Buf (Elt F) ℓ)
    (c : Dev Cert.ReferenceIdeal.nD) :
    StableHlo.after (Cert.ReferenceIdeal.ValueP.ops (F := F)) (StableHlo.launchContents m' c)
        (Proc.devRef .tc Cert.ReferenceIdeal.main_v159)
      = Cert.ReferenceIdeal.ValueP.res_main_v159 m' c := by
  after_results_simp <;> rfl <;> (unfold Cert.ReferenceIdeal.ValueP.res_main_v159; rfl)

section
open Cert.KernelIdeal Cert.KernelIdeal.Gen

set_option maxHeartbeats 400000000 in
/-- The kernel program's last boundary contents at its result 0 are the reference's composed term for its result 0, when the
    two launch memories agree on the twelve arguments. -/
theorem result0 (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11)) :
    W16 m ρ c (Proc.devRef .tc main_v161) = Cert.ReferenceIdeal.ValueP.res_main_v159 m' c := by
  refine Eq.trans ?_ (reference_fold0 (F := Ideal) m' c)
  simp (disch := decide) only [W16, W15, W14, W12, W11, W10, W9, W7, W6, W5, W4, W2, W1,
    hostOps0, hostOps0_1, hostOps1, hostOps1_1, hostOps1_2, hostOps1_3, hostOps2, hostOps2_1, hostOps2_2, hostOps2_3, hostOps3, hostOps3_1, hostOps3_2,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Boundaries.W3_other, Cert.KernelIdeal.Boundaries.W8_other, Cert.KernelIdeal.Boundaries.W13_other,
    Cert.KernelIdeal.Boundaries.product0, Cert.KernelIdeal.Boundaries.product1, Cert.KernelIdeal.Boundaries.product2, Cert.ReferenceIdeal.ValueP.ops]
  simp only [StableHlo.launchContents]
  simp only [h0, h1, h2, h3, h4, h5, h6, h7, h8, h9, h10, h11]
  rfl

end

end Cert.Results

end
-- ==== Proof.Result1.lean ====
/-
  Result 1 of the two programs is one array: the user embeddings of the first branch: the mean over the four layers of the bipartite propagation started from `user_emb` beside `spot_emb` plus the first graph convolution of `spot_emb · W_spot`.

  Both programs compute it by the same host operations in the same order — the same gathers, accumulating scatters,
  normalisations and sums, on the same literals — except where the reference multiplies a 42852×128 array by a 128×128
  weight in one host product and the kernel program extends the array by 156 rows, multiplies it block by block in a
  region and cuts the first 42852 rows. Reading the kernel program's last boundary contents back through its thirteen
  stretches of host operations and three regions, each of those three places is the reference's product
  (`Boundaries.product0/1/2`); reading the reference's one line of operations back in the same way gives the same
  composed term of the argument arrays, on which the two memories agree; and that term is the one the reference's run is
  stated with.
-/
import proofs.«147411_j59854664237657_1_alg».proof.Proof.Boundaries
import proofs.«147411_j59854664237657_1_alg».proof.Proof.ReferenceRun
import proofs.«147411_j59854664237657_1_alg».proof.Proof.Result0

set_option maxRecDepth 16384

noncomputable section

namespace Cert.Results

open Idealize.ShloMosaic Idealize.ShloMosaic.TcCoe Idealize.SL.Sem Idealize.ShloMosaic.StableHlo

set_option maxRecDepth 65536 in
set_option maxHeartbeats 400000000 in
/-- The reference's line of operations, folded from the launch contents and read at its result 1, is the composed term its
    run is stated with, for any float values. -/
theorem reference_fold1 {F : FTy → Type} [FloatOps F]
    (m' : (ℓ : Loc Cert.ReferenceIdeal.nD Cert.ReferenceIdeal.τ Cert.ReferenceIdeal.sig) → Buf (Elt F) ℓ)
    (c : Dev Cert.ReferenceIdeal.nD) :
    StableHlo.after (Cert.ReferenceIdeal.ValueP.ops (F := F)) (StableHlo.launchContents m' c)
        (Proc.devRef .tc Cert.ReferenceIdeal.main_v161)
      = Cert.ReferenceIdeal.ValueP.res_main_v161 m' c := by
  after_results_simp <;> rfl <;> (unfold Cert.ReferenceIdeal.ValueP.res_main_v161; rfl)

section
open Cert.KernelIdeal Cert.KernelIdeal.Gen

set_option maxHeartbeats 400000000 in
/-- The kernel program's last boundary contents at its result 1 are the reference's composed term for its result 1, when the
    two launch memories agree on the twelve arguments. -/
theorem result1 (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11)) :
    W16 m ρ c (Proc.devRef .tc main_v163) = Cert.ReferenceIdeal.ValueP.res_main_v161 m' c := by
  refine Eq.trans ?_ (reference_fold1 (F := Ideal) m' c)
  simp (disch := decide) only [W16, W15, W14, W12, W11, W10, W9, W7, W6, W5, W4, W2, W1,
    hostOps0, hostOps0_1, hostOps1, hostOps1_1, hostOps1_2, hostOps1_3, hostOps2, hostOps2_1, hostOps2_2, hostOps2_3, hostOps3, hostOps3_1, hostOps3_2,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Boundaries.W3_other, Cert.KernelIdeal.Boundaries.W8_other, Cert.KernelIdeal.Boundaries.W13_other,
    Cert.KernelIdeal.Boundaries.product0, Cert.KernelIdeal.Boundaries.product1, Cert.KernelIdeal.Boundaries.product2, Cert.ReferenceIdeal.ValueP.ops]
  simp only [StableHlo.launchContents]
  simp only [h0, h1, h2, h3, h4, h5, h6, h7, h8, h9, h10, h11]
  rfl

end

end Cert.Results

end
-- ==== Proof.Result2.lean ====
/-
  Result 2 of the two programs is one array: the spot embeddings of the second branch: the propagated mean of the raw embeddings plus a quarter of the second graph convolution of `spot_emb · W_spot10`.

  Both programs compute it by the same host operations in the same order — the same gathers, accumulating scatters,
  normalisations and sums, on the same literals — except where the reference multiplies a 42852×128 array by a 128×128
  weight in one host product and the kernel program extends the array by 156 rows, multiplies it block by block in a
  region and cuts the first 42852 rows. Reading the kernel program's last boundary contents back through its thirteen
  stretches of host operations and three regions, each of those three places is the reference's product
  (`Boundaries.product0/1/2`); reading the reference's one line of operations back in the same way gives the same
  composed term of the argument arrays, on which the two memories agree; and that term is the one the reference's run is
  stated with.
-/
import proofs.«147411_j59854664237657_1_alg».proof.Proof.Boundaries
import proofs.«147411_j59854664237657_1_alg».proof.Proof.ReferenceRun
import proofs.«147411_j59854664237657_1_alg».proof.Proof.Result1

set_option maxRecDepth 16384

noncomputable section

namespace Cert.Results

open Idealize.ShloMosaic Idealize.ShloMosaic.TcCoe Idealize.SL.Sem Idealize.ShloMosaic.StableHlo

set_option maxRecDepth 65536 in
set_option maxHeartbeats 400000000 in
/-- The reference's line of operations, folded from the launch contents and read at its result 2, is the composed term its
    run is stated with, for any float values. -/
theorem reference_fold2 {F : FTy → Type} [FloatOps F]
    (m' : (ℓ : Loc Cert.ReferenceIdeal.nD Cert.ReferenceIdeal.τ Cert.ReferenceIdeal.sig) → Buf (Elt F) ℓ)
    (c : Dev Cert.ReferenceIdeal.nD) :
    StableHlo.after (Cert.ReferenceIdeal.ValueP.ops (F := F)) (StableHlo.launchContents m' c)
        (Proc.devRef .tc Cert.ReferenceIdeal.main_v295)
      = Cert.ReferenceIdeal.ValueP.res_main_v295 m' c := by
  after_results_simp <;> rfl <;> (unfold Cert.ReferenceIdeal.ValueP.res_main_v295; rfl)

section
open Cert.KernelIdeal Cert.KernelIdeal.Gen

set_option maxHeartbeats 400000000 in
/-- The kernel program's last boundary contents at its result 2 are the reference's composed term for its result 2, when the
    two launch memories agree on the twelve arguments. -/
theorem result2 (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11)) :
    W16 m ρ c (Proc.devRef .tc main_v299) = Cert.ReferenceIdeal.ValueP.res_main_v295 m' c := by
  refine Eq.trans ?_ (reference_fold2 (F := Ideal) m' c)
  simp (disch := decide) only [W16, W15, W14, W12, W11, W10, W9, W7, W6, W5, W4, W2, W1,
    hostOps0, hostOps0_1, hostOps1, hostOps1_1, hostOps1_2, hostOps1_3, hostOps2, hostOps2_1, hostOps2_2, hostOps2_3, hostOps3, hostOps3_1, hostOps3_2,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Boundaries.W3_other, Cert.KernelIdeal.Boundaries.W8_other, Cert.KernelIdeal.Boundaries.W13_other,
    Cert.KernelIdeal.Boundaries.product0, Cert.KernelIdeal.Boundaries.product1, Cert.KernelIdeal.Boundaries.product2, Cert.ReferenceIdeal.ValueP.ops]
  simp only [StableHlo.launchContents]
  simp only [h0, h1, h2, h3, h4, h5, h6, h7, h8, h9, h10, h11]
  rfl

end

end Cert.Results

end
-- ==== Proof.Result4.lean ====
/-
  Result 4 of the two programs is one array: the spot embeddings of the third branch: the propagated mean of the raw embeddings plus a quarter of the third graph convolution of the last propagated spot layer times `W_spot20`.

  Both programs compute it by the same host operations in the same order — the same gathers, accumulating scatters,
  normalisations and sums, on the same literals — except where the reference multiplies a 42852×128 array by a 128×128
  weight in one host product and the kernel program extends the array by 156 rows, multiplies it block by block in a
  region and cuts the first 42852 rows. Reading the kernel program's last boundary contents back through its thirteen
  stretches of host operations and three regions, each of those three places is the reference's product
  (`Boundaries.product0/1/2`); reading the reference's one line of operations back in the same way gives the same
  composed term of the argument arrays, on which the two memories agree; and that term is the one the reference's run is
  stated with.
-/
import proofs.«147411_j59854664237657_1_alg».proof.Proof.Boundaries
import proofs.«147411_j59854664237657_1_alg».proof.Proof.ReferenceRun
import proofs.«147411_j59854664237657_1_alg».proof.Proof.Result2

set_option maxRecDepth 16384

noncomputable section

namespace Cert.Results

open Idealize.ShloMosaic Idealize.ShloMosaic.TcCoe Idealize.SL.Sem Idealize.ShloMosaic.StableHlo

set_option maxRecDepth 65536 in
set_option maxHeartbeats 400000000 in
/-- The reference's line of operations, folded from the launch contents and read at its result 4, is the composed term its
    run is stated with, for any float values. -/
theorem reference_fold4 {F : FTy → Type} [FloatOps F]
    (m' : (ℓ : Loc Cert.ReferenceIdeal.nD Cert.ReferenceIdeal.τ Cert.ReferenceIdeal.sig) → Buf (Elt F) ℓ)
    (c : Dev Cert.ReferenceIdeal.nD) :
    StableHlo.after (Cert.ReferenceIdeal.ValueP.ops (F := F)) (StableHlo.launchContents m' c)
        (Proc.devRef .tc Cert.ReferenceIdeal.main_v347)
      = Cert.ReferenceIdeal.ValueP.res_main_v347 m' c := by
  after_results_simp <;> rfl <;> (unfold Cert.ReferenceIdeal.ValueP.res_main_v347; rfl)

section
open Cert.KernelIdeal Cert.KernelIdeal.Gen

set_option maxHeartbeats 400000000 in
/-- The kernel program's last boundary contents at its result 4 are the reference's composed term for its result 4, when the
    two launch memories agree on the twelve arguments. -/
theorem result4 (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11)) :
    W16 m ρ c (Proc.devRef .tc main_v353) = Cert.ReferenceIdeal.ValueP.res_main_v347 m' c := by
  refine Eq.trans ?_ (reference_fold4 (F := Ideal) m' c)
  simp (disch := decide) only [W16, W15, W14, W12, W11, W10, W9, W7, W6, W5, W4, W2, W1,
    hostOps0, hostOps0_1, hostOps1, hostOps1_1, hostOps1_2, hostOps1_3, hostOps2, hostOps2_1, hostOps2_2, hostOps2_3, hostOps3, hostOps3_1, hostOps3_2,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Cert.KernelIdeal.Boundaries.W3_other, Cert.KernelIdeal.Boundaries.W8_other, Cert.KernelIdeal.Boundaries.W13_other,
    Cert.KernelIdeal.Boundaries.product0, Cert.KernelIdeal.Boundaries.product1, Cert.KernelIdeal.Boundaries.product2, Cert.ReferenceIdeal.ValueP.ops]
  simp only [StableHlo.launchContents]
  simp only [h0, h1, h2, h3, h4, h5, h6, h7, h8, h9, h10, h11]
  rfl

end

end Cert.Results

end
-- ==== Proof.lean ====
/- The proof of `Cert.Claim` (proofs.«147411_j59854664237657_1_alg».proof.Defs).

   The kernel program and the reference are the same graph network on the host — degrees by accumulating scatters, three
   normalised graph convolutions, two bipartite propagations of three layers, the layer means — and differ in one place,
   three times over: where the reference forms `x · W` for a 42852×128 array `x` and a 128×128 weight `W` by one host
   product, the kernel program extends `x` by 156 rows, multiplies 1024 rows at a time in a region of 42 grid points (both
   operands through a change of float format, into a zero accumulator), and keeps the first 42852 rows. On the extended reals
   a change of format is the identity, entry `(p, q)` of a block's product is the sum `∑ k, x (1024·t + p, k) * W (k, q)`
   that the host product has at that row, the 42 blocks tile the extended array, and the added rows are cut away: the two
   programs end with equal results, with no condition on the inputs (`finite_inputs` is never opened).

   Proof/PaddedProduct.lean: the first 42852 rows of the extended product are `x · W`. Proof/RowBlocks0/1/2.lean: what each
   region leaves in its output array. Proof/Boundaries.lean: each region with the two operations before it and the slice
   after it is the host's product. Proof/WholeRun.lean: the kernel program's run with every buffer named at the last
   boundary's contents. Proof/Result0 … Result4.lean: those contents at each result are the reference's composed term of the
   arguments. Proof/ReferenceRun.lean: the reference's run. The three frames are the generated frame certificates and the
   reference's run with its results dropped; nothing was rewritten by the idealization, so `preserves` asks nothing. -/
import proofs.«147411_j59854664237657_1_alg».proof.Defs
import proofs.«147411_j59854664237657_1_alg».proof.Proof.Gen.Kernel
import proofs.«147411_j59854664237657_1_alg».proof.Proof.Gen.Kernel.Skeleton
import proofs.«147411_j59854664237657_1_alg».proof.Proof.Gen.Kernel.Launch
import proofs.«147411_j59854664237657_1_alg».proof.Proof.Gen.Kernel.Points
import proofs.«147411_j59854664237657_1_alg».proof.Proof.Gen.Kernel.Frame
import proofs.«147411_j59854664237657_1_alg».proof.Proof.Gen.KernelIdeal
import proofs.«147411_j59854664237657_1_alg».proof.Proof.Gen.KernelIdeal.Skeleton
import proofs.«147411_j59854664237657_1_alg».proof.Proof.Gen.KernelIdeal.Launch
import proofs.«147411_j59854664237657_1_alg».proof.Proof.Gen.KernelIdeal.Points
import proofs.«147411_j59854664237657_1_alg».proof.Proof.Gen.KernelIdeal.Frame
import proofs.«147411_j59854664237657_1_alg».proof.Proof.Gen.ReferenceIdeal
import proofs.«147411_j59854664237657_1_alg».proof.Proof.Gen.Pre_finite_inputs
import proofs.«147411_j59854664237657_1_alg».proof.Proof.ReferenceRun
import proofs.«147411_j59854664237657_1_alg».proof.Proof.WholeRun
import proofs.«147411_j59854664237657_1_alg».proof.Proof.Result0
import proofs.«147411_j59854664237657_1_alg».proof.Proof.Result1
import proofs.«147411_j59854664237657_1_alg».proof.Proof.Result2
import proofs.«147411_j59854664237657_1_alg».proof.Proof.Result3
import proofs.«147411_j59854664237657_1_alg».proof.Proof.Result4
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the six results dropped. -/
theorem frame_referenceIdeal : Cert.frame_ReferenceIdeal := fun m ρ _ =>
  (θ_run Cert.ReferenceIdeal.defs _ _).mono (fun _ h c => (h c).2.2.2.2.2.2) (Cert.ReferenceIdeal.ValueP.run (F := Ideal) m ρ)

section
open Cert.KernelIdeal Cert.KernelIdeal.Gen

/-- Both programs run, and end with equal results: the kernel program's are the last boundary's contents at its result
    buffers, and the reference's composed terms are those (`Cert.Results.result0 … result4`). -/
theorem algebraic : Cert.algebraic_KernelIdeal_ReferenceIdeal := by
  intro m ρ m' ρ' _ hagree
  refine ⟨fun c => W16 m ρ c (Proc.devRef .tc main_v161), fun c => W16 m ρ c (Proc.devRef .tc main_v163),
    fun c => W16 m ρ c (Proc.devRef .tc main_v299), fun c => W16 m ρ c (Proc.devRef .tc main_v245),
    fun c => W16 m ρ c (Proc.devRef .tc main_v353), fun c => W16 m ρ c (Proc.devRef .tc main_v245), ?_, ?_⟩
  · exact (θ_run Cert.KernelIdeal.defs _ _).mono (fun r h c =>
      ⟨h c _ (mem_uc main_v161 (by decide)), h c _ (mem_uc main_v163 (by decide)), h c _ (mem_uc main_v299 (by decide)),
        h c _ (mem_uc main_v245 (by decide)), h c _ (mem_uc main_v353 (by decide)), h c _ (mem_uc main_v245 (by decide)),
        (h c _ (mem_uc main_arg0 (by decide))).trans (W16_main_arg0 m ρ c),
        (h c _ (mem_uc main_arg1 (by decide))).trans (W16_main_arg1 m ρ c),
        (h c _ (mem_uc main_arg2 (by decide))).trans (W16_main_arg2 m ρ c),
        (h c _ (mem_uc main_arg3 (by decide))).trans (W16_main_arg3 m ρ c),
        (h c _ (mem_uc main_arg4 (by decide))).trans (W16_main_arg4 m ρ c),
        (h c _ (mem_uc main_arg5 (by decide))).trans (W16_main_arg5 m ρ c),
        (h c _ (mem_uc main_arg6 (by decide))).trans (W16_main_arg6 m ρ c),
        (h c _ (mem_uc main_arg7 (by decide))).trans (W16_main_arg7 m ρ c),
        (h c _ (mem_uc main_arg8 (by decide))).trans (W16_main_arg8 m ρ c),
        (h c _ (mem_uc main_arg9 (by decide))).trans (W16_main_arg9 m ρ c),
        (h c _ (mem_uc main_arg10 (by decide))).trans (W16_main_arg10 m ρ c),
        (h c _ (mem_uc main_arg11 (by decide))).trans (W16_main_arg11 m ρ c)⟩)
      (Cert.KernelIdeal.WholeRun.run_all m ρ)
  · refine (θ_run Cert.ReferenceIdeal.defs _ _).mono (fun r h c => ?_) (Cert.ReferenceIdeal.ValueP.run (F := Ideal) m' ρ')
    obtain ⟨h0, h1, h2, h3, h4, h5, h6, h7, h8, h9, h10, h11⟩ := hagree c
    obtain ⟨r0, r1, r2, r3, r4, r5, rest⟩ := h c
    exact ⟨r0.trans (Cert.Results.result0 m ρ m' c h0 h1 h2 h3 h4 h5 h6 h7 h8 h9 h10 h11).symm,
      r1.trans (Cert.Results.result1 m ρ m' c h0 h1 h2 h3 h4 h5 h6 h7 h8 h9 h10 h11).symm,
      r2.trans (Cert.Results.result2 m ρ m' c h0 h1 h2 h3 h4 h5 h6 h7 h8 h9 h10 h11).symm,
      r3.trans (Cert.Results.result3 m ρ m' c h0 h1 h2 h3 h4 h5 h6 h7 h8 h9 h10 h11).symm,
      r4.trans (Cert.Results.result4 m ρ m' c h0 h1 h2 h3 h4 h5 h6 h7 h8 h9 h10 h11).symm,
      r5.trans (Cert.Results.result3 m ρ m' c h0 h1 h2 h3 h4 h5 h6 h7 h8 h9 h10 h11).symm, rest⟩

end

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
